-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x1 : Shape := ⟨2, ![1200000, 1]⟩
abbrev S100000 : Shape := ⟨1, ![100000]⟩
abbrev S100 : Shape := ⟨1, ![100]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x1 : S_.BroadcastsInDim S1200000x1 (![] : Fin 0 → Fin S1200000x1.rank)
  reducesTo_S1200000x1_S_d0_1 : S1200000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg4 main_v39
  let main_c_15 : IVec S_ 32 := constantI S_ 32 100#32
  let main_v41 : IVec S100000 32 := broadcastInDim S100000 ![] bcast_S_S100000 main_c_15
  let main_v42 : IVec S100000 1 := cmpi .slt main_arg4 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  main_v45

def fn_part1 {F : FTy → Type} [FloatOps F] (main_arg4 : IVec S100000 32) (main_arg7 : FVec F S64x64 .f32) (main_arg8 : FVec F S64x64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg4 main_arg10 main_v33

def fn {F : FTy → Type} [FloatOps F] (main_arg0 : FVec F S100000x64 .f32) (main_arg1 : FVec F S100000x64 .f32) (main_arg2 : IVec S2x1200000 32) (main_arg3 : FVec F S1200000x1 .f32) (main_arg4 : IVec S100000 32) (main_arg5 : IVec S100 32) (main_arg6 : FVec F S64x64 .f32) (main_arg7 : FVec F S64x64 .f32) (main_arg8 : FVec F S64x64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1200000x1 .f32 := Host.absf main_arg3
  let main_cst_2 : FVec F S_ .f32 := constant S_ .f32 0x7F800000#32
  let main_v10 : FVec F S1200000x1 .f32 := broadcastInDim S1200000x1 ![] bcast_S_S1200000x1 main_cst_2
  let main_v11 : IVec S1200000x1 1 := cmpf .olt main_v9 main_v10
  let main_c_3 : IVec S_ 1 := constantI S_ 1 1#1
  let main_v12 : IVec S_ 1 := (fun x v => Host.reduce IntOp.andi x v reducesTo_S1200000x1_S_d0_1 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg7 main_arg8 main_arg9 main_arg10 main_v13 main_v16
-- ==== Kernel.lean ====
abbrev S100000x64 : Shape := ⟨2, ![100000, 64]⟩
abbrev S2x1200000 : Shape := ⟨2, ![2, 1200000]⟩
abbrev S1200000x1 : Shape := ⟨2, ![1200000, 1]⟩
abbrev S100000 : Shape := ⟨1, ![100000]⟩
abbrev S100 : Shape := ⟨1, ![100]⟩
abbrev S64x64 : Shape := ⟨2, ![64, 64]⟩
abbrev S64 : Shape := ⟨1, ![64]⟩
abbrev S10000x64 : Shape := ⟨2, ![10000, 64]⟩
abbrev S1x1200000 : Shape := ⟨2, ![1, 1200000]⟩
abbrev S1200000 : Shape := ⟨1, ![1200000]⟩
abbrev S_ : Shape := ⟨0, ![]⟩
abbrev S1200000x64 : Shape := ⟨2, ![1200000, 64]⟩
abbrev S100000x1 : Shape := ⟨2, ![100000, 1]⟩
abbrev S100x1 : Shape := ⟨2, ![100, 1]⟩
abbrev S100x64 : Shape := ⟨2, ![100, 64]⟩
abbrev S5000x64 : Shape := ⟨2, ![5000, 64]⟩
abbrev S5000x1 : Shape := ⟨2, ![5000, 1]⟩
abbrev S5000x100 : Shape := ⟨2, ![5000, 100]⟩
abbrev S1x64 : Shape := ⟨2, ![1, 64]⟩

abbrev nBuf : Space → Nat
  | .hbm => 53
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1200000, .i32⟩
  | .hbm, ⟨3, _⟩ => ⟨S1200000x1, .f32⟩
  | .hbm, ⟨4, _⟩ => ⟨S100000, .i32⟩
  | .hbm, ⟨5, _⟩ => ⟨S100, .i32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S100000x64, .f32⟩
  | .hbm, ⟨15, _⟩ => ⟨S1x1200000, .i32⟩
  | .hbm, ⟨16, _⟩ => ⟨S1200000, .i32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .f32⟩
  | .hbm, ⟨26, _⟩ => ⟨S1200000x64, .f32⟩
  | .hbm, ⟨27, _⟩ => ⟨S1200000x64, .f32⟩
  | .hbm, ⟨28, _⟩ => ⟨S1x1200000, .i32⟩
  | .hbm, ⟨29, _⟩ => ⟨S1200000, .i32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x1, .i32⟩
  | .hbm, ⟨35, _⟩ => ⟨S100, .f32⟩
  | .hbm, ⟨36, _⟩ => ⟨S100x1, .f32⟩
  | .hbm, ⟨37, _⟩ => ⟨S100x64, .f32⟩
  | .hbm, ⟨38, _⟩ => ⟨S100x64, .f32⟩
  | .hbm, ⟨39, _⟩ => ⟨S100x64, .f32⟩
  | .hbm, ⟨40, _⟩ => ⟨S100x64, .f32⟩
  | .hbm, ⟨41, _⟩ => ⟨S_, .f32⟩
  | .hbm, ⟨42, _⟩ => ⟨S100x1, .f32⟩
  | .hbm, ⟨43, _⟩ => ⟨S100x1, .f32⟩
  | .hbm, ⟨44, _⟩ => ⟨S_, .f32⟩
  | .hbm, ⟨45, _⟩ => ⟨S100x1, .f32⟩
  | .hbm, ⟨46, _⟩ => ⟨S100x1, .f32⟩
  | .hbm, ⟨47, _⟩ => ⟨S100x64, .f32⟩
  | .hbm, ⟨48, _⟩ => ⟨S100x64, .f32⟩
  | .hbm, ⟨49, _⟩ => ⟨S100x64, .f32⟩
  | .hbm, ⟨50, _⟩ => ⟨S1x64, .f32⟩
  | .hbm, ⟨51, _⟩ => ⟨S1x64, .f32⟩
  | .hbm, ⟨52, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .i32⟩
  | .local _ .vmem, ⟨12, _⟩ => ⟨S5000x1, .i32⟩
  | .local _ .vmem, ⟨13, _⟩ => ⟨S100x64, .f32⟩
  | .local _ .vmem, ⟨14, _⟩ => ⟨S5000x64, .f32⟩
  | .local _ .vmem, ⟨15, _⟩ => ⟨S5000x64, .f32⟩
  | .local _ .vmem, ⟨16, _⟩ => ⟨S5000x1, .i32⟩
  | .local _ .vmem, ⟨17, _⟩ => ⟨S5000x1, .i32⟩
  | .local _ .vmem, ⟨18, _⟩ => ⟨S100x64, .f32⟩
  | .local _ .vmem, ⟨19, _⟩ => ⟨S100x64, .f32⟩
  | .local _ .vmem, ⟨20, _⟩ => ⟨S5000x64, .f32⟩
  | .local _ .vmem, ⟨21, _⟩ => ⟨S5000x64, .f32⟩
  | .local _ .vmem, ⟨22, _⟩ => ⟨S5000x1, .i32⟩
  | .local _ .vmem, ⟨23, _⟩ => ⟨S5000x1, .i32⟩
  | .local _ .vmem, ⟨24, _⟩ => ⟨S100x64, .f32⟩
  | .local _ .vmem, ⟨25, _⟩ => ⟨S100x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S100x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S2x1200000_S1x1200000_0_0 : S2x1200000.Slices ![0, 0] S1x1200000
  bcast_S_S100000x64 : S_.BroadcastsInDim S100000x64 (![] : Fin 0 → Fin S100000x64.rank)
  shapeCasts_S100000_S100000x1 : S100000.ShapeCasts S100000x1
  shapeCasts_S100_S100x1 : S100.ShapeCasts S100x1
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x100_d1_w32 : S5000x100.Iotas .tc 32 [1]
  broadcasts_S5000x1_S5000x100 : S5000x1.Broadcasts S5000x100
  natLt_1_32 : 1 < 32
  shapeCasts_S100x64_S100x64 : S100x64.ShapeCasts S100x64
  bcast_S100x1_S100x64_0_1 : S100x1.BroadcastsInDim S100x64 (![0, 1] : Fin 2 → Fin S100x64.rank)
  bcast_S_S100x1 : S_.BroadcastsInDim S100x1 (![] : Fin 0 → Fin S100x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x100_S5000x64_S100x64_0_0_1_1_n_n_wf : DotDims.WF S5000x100 S5000x64 S100x64 [0] [0] [1] [1] [] []
  dot_S5000x100_S100x64_S5000x64_1_0_0_1_n_n_wf : DotDims.WF S5000x100 S100x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x64.size a ≤ S100x64.size a
  hwx1_2 : ∀ i : grid1.Coords, EltTy.bits .f32 = 32 ∨ (Rect.block (s := S100x64) S100x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x64.size a ≤ S100x64.size a
  hwx2_2 : ∀ i : grid2.Coords, EltTy.bits .f32 = 32 ∨ (Rect.block (s := S100x64) S100x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x64.size a ≤ S100x64.size a
  hwx2_3 : ∀ i : grid2.Coords, EltTy.bits .f32 = 32 ∨ (Rect.block (s := S100x64) S100x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x64.size a ≤ S100x64.size a
  hwx3_2 : ∀ i : grid3.Coords, EltTy.bits .f32 = 32 ∨ (Rect.block (s := S100x64) S100x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x64.size a ≤ S100x64.size a
  hwx3_3 : ∀ i : grid3.Coords, EltTy.bits .f32 = 32 ∨ (Rect.block (s := S100x64) S100x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x100_S5000x64_S100x64_0_0_1_1_n_n : DotDims S5000x100 S5000x64 S100x64 where
  lhsContracting := [0]
  rhsContracting := [0]
  lhsNonContracting := [1]
  rhsNonContracting := [1]
  lhsBatch := []
  rhsBatch := []
  wf := dot_S5000x100_S5000x64_S100x64_0_0_1_1_n_n_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S100x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S100x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S100x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S100x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S100x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x1 : Shape := ⟨2, ![1200000, 1]⟩
abbrev S100000 : Shape := ⟨1, ![100000]⟩
abbrev S100 : Shape := ⟨1, ![100]⟩
abbrev S64x64 : Shape := ⟨2, ![64, 64]⟩
abbrev S64 : Shape := ⟨1, ![64]⟩
abbrev S_ : Shape := ⟨0, ![]⟩
abbrev S1x1200000 : Shape := ⟨2, ![1, 1200000]⟩
abbrev S1200000 : Shape := ⟨1, ![1200000]⟩
abbrev S1200000x64 : Shape := ⟨2, ![1200000, 64]⟩
abbrev S100x1 : Shape := ⟨2, ![100, 1]⟩
abbrev S100x64 : Shape := ⟨2, ![100, 64]⟩
abbrev S100000x1 : Shape := ⟨2, ![100000, 1]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1200000, .i32⟩
  | .hbm, ⟨3, _⟩ => ⟨S1200000x1, .f32⟩
  | .hbm, ⟨4, _⟩ => ⟨S100000, .i32⟩
  | .hbm, ⟨5, _⟩ => ⟨S100, .i32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S100000x64, .f32⟩
  | .hbm, ⟨13, _⟩ => ⟨S100000x64, .f32⟩
  | .hbm, ⟨14, _⟩ => ⟨S_, .f32⟩
  | .hbm, ⟨15, _⟩ => ⟨S100000x64, .f32⟩
  | .hbm, ⟨16, _⟩ => ⟨S100000x64, .i1⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S64x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .i1⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S1x1200000, .i32⟩
  | .hbm, ⟨33, _⟩ => ⟨S1200000, .i32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S1200000x64, .f32⟩
  | .hbm, ⟨44, _⟩ => ⟨S1200000x64, .f32⟩
  | .hbm, ⟨45, _⟩ => ⟨S1x1200000, .i32⟩
  | .hbm, ⟨46, _⟩ => ⟨S1200000, .i32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .hbm, ⟨51, _⟩ => ⟨S100, .f32⟩
  | .hbm, ⟨52, _⟩ => ⟨S100x1, .f32⟩
  | .hbm, ⟨53, _⟩ => ⟨S_, .f32⟩
  | .hbm, ⟨54, _⟩ => ⟨S100x64, .f32⟩
  | .hbm, ⟨55, _⟩ => ⟨S100000x1, .i32⟩
  | .hbm, ⟨56, _⟩ => ⟨S100x64, .f32⟩
  | .hbm, ⟨57, _⟩ => ⟨S100x64, .f32⟩
  | .hbm, ⟨58, _⟩ => ⟨S100x64, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100x64, .f32⟩
  | .hbm, ⟨72, _⟩ => ⟨S100000x1, .i32⟩
  | .hbm, ⟨73, _⟩ => ⟨S100x64, .f32⟩
  | .hbm, ⟨74, _⟩ => ⟨S_, .f32⟩
  | .hbm, ⟨75, _⟩ => ⟨S100x1, .f32⟩
  | .hbm, ⟨76, _⟩ => ⟨S100x1, .f32⟩
  | .hbm, ⟨77, _⟩ => ⟨S_, .f32⟩
  | .hbm, ⟨78, _⟩ => ⟨S100x1, .f32⟩
  | .hbm, ⟨79, _⟩ => ⟨S100x1, .f32⟩
  | .hbm, ⟨80, _⟩ => ⟨S100x64, .f32⟩
  | .hbm, ⟨81, _⟩ => ⟨S100x64, .f32⟩
  | .hbm, ⟨82, _⟩ => ⟨S100x64, .f32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  transposes_S64x64_S64x64_1_0 : S64x64.Transposes [1, 0] S64x64
  bcast_S_S100000x64 : S_.BroadcastsInDim S100000x64 (![] : Fin 0 → Fin S100000x64.rank)
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S2x1200000_S1x1200000_0_0 : S2x1200000.Slices ![0, 0] S1x1200000
  bcast_S100_S100x1_0 : S100.BroadcastsInDim S100x1 (![0] : Fin 1 → Fin S100x1.rank)
  bcast_S_S100x64 : S_.BroadcastsInDim S100x64 (![] : Fin 0 → Fin S100x64.rank)
  bcast_S100000_S100000x1_0 : S100000.BroadcastsInDim S100000x1 (![0] : Fin 1 → Fin S100000x1.rank)
  bcast_S100x1_S100x64_0_1 : S100x1.BroadcastsInDim S100x64 (![0, 1] : Fin 2 → Fin S100x64.rank)
  bcast_S_S100000 : S_.BroadcastsInDim S100000 (![] : Fin 0 → Fin S100000.rank)
  bcast_S_S100x1 : S_.BroadcastsInDim S100x1 (![] : Fin 0 → Fin S100x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100x64_S100000x1_S100000x64_1_0_0_1_wf : ScatterDims.WF S100x64 S100000x1 S100000x64 [1] [0] [0] 1
  gather_S100x64_S100000x1_S100000x64_1_0_n_n_0_1_164_wf : GatherDims.WF S100x64 S100000x1 S100000x64 [1] [0] [] [0] [] 1 ![1, 64]

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf

class Facts : Prop extends Facts₀ where

variable [Facts]
-- ==== Proof.RefImports.lean ====
/- The reference program's generated run and its read-at-an-index lemmas, gathered for the modules that use them. -/
import proofs.«103468_j83322365542770_2_alg».proof.Proof.Gen.ReferenceIdeal.Run
import proofs.«103468_j83322365542770_2_alg».proof.Proof.Gen.ReferenceIdeal.Read
-- ==== Proof.Spec.lean ====
/-
  THE COMMON FUNCTIONS. Both programs compute, over the extended reals, a graph convolution followed by a per-graph
  normalisation, for 100000 nodes with 64 features, 100 graphs, and a map sending each node to the number of its graph:

    * the feature transform: three dense layers, the first two followed by a leaky rectifier
        h(n, q) = Σ_k3 leaky (Σ_k2 leaky (x(n,k2) + Σ_k1 s(n,k1) a(k1,k2)) b(k2,k3)) c(k3,q);
    * a sum over the nodes of each graph: segSum(g, q) = 0 + Σ_n [node n is in graph g] X(n, q);
    * the sum of squared deviations from a per-graph row M: varSum(g, q) = 0 + Σ_n [n in g] (A(n,q) - M(g(n),q))²;
    * the normalised output: out(n, q) = (A(n,q) - M(g(n),q)) / (S(g(n),q) + ε) · γ(q) + β(q).

  The graph of a node is a 32-bit word read signed; "node n is in graph g" says its value is g, and g(n) is that value
  cut off into 0..99 (which changes nothing when every word is in that range).
-/
import Idealize.ShloMosaic.PureOps.Ideal
import Idealize.ShloMosaic.Lib.ValueIdx

noncomputable section

open scoped BigOperators

namespace Cert.Spec

open Idealize.ShloMosaic Idealize.ShloMosaic.ValueIdx

/-- Node features: 100000 nodes by 64 features. -/
abbrev SN : Shape := ⟨2, ![100000, 64]⟩
/-- A weight matrix. -/
abbrev SW : Shape := ⟨2, ![64, 64]⟩
/-- One row of 64 features per graph. -/
abbrev SG : Shape := ⟨2, ![100, 64]⟩

/-- The float zero, as the programs spell it. -/
abbrev zero : EReal := Ideal.ofBits .f32 0x00000000#32
/-- The rectifier's slope on the negative side, the programs' literal (the float nearest 0.01). -/
abbrev slope : EReal := Ideal.ofBits .f32 0x3C23D70A#32
/-- The float one. -/
abbrev one : EReal := Ideal.ofBits .f32 0x3F800000#32
/-- The guard added to the deviation before dividing, the programs' literal (the float nearest 1e-6). -/
abbrev eps : EReal := Ideal.ofBits .f32 0x358637BD#32

/-- The leaky rectifier: `v` where `v ≥ 0`, `slope · v` elsewhere, with the programs' own comparison and selection. -/
def leaky (v : EReal) : EReal :=
  Scalar.select (FloatOps.cmpf (F := Ideal) (φ := .f32) .oge v zero) v (slope * v)

/-- The feature transform at node `n`, feature `q`. -/
def mlp (x s : SN.Idx → EReal) (a b c : SW.Idx → EReal) (n : Fin 100000) (q : Fin 64) : EReal :=
  ∑ k3 : Fin 64, leaky (∑ k2 : Fin 64, leaky (x (ix2 n k2) + ∑ k1 : Fin 64, s (ix2 n k1) * a (ix2 k1 k2)) * b (ix2 k2 k3))
    * c (ix2 k3 q)

/-- The graph of node `n`, cut off into `0..99`. -/
def graphOf (bv : Fin 100000 → BitVec 32) (n : Fin 100000) : Fin 100 :=
  ⟨min (bv n).toInt.toNat 99, by omega⟩

/-- The sum of `X`'s rows over the nodes of graph `g`, from the float zero. -/
def segSum (bv : Fin 100000 → BitVec 32) (X : SN.Idx → EReal) (g : Fin 100) (q : Fin 64) : EReal :=
  zero + ∑ n : Fin 100000, if (bv n).toInt = (g.val : Int) then X (ix2 n q) else 0

/-- The sum over the nodes of graph `g` of the squared deviation of `A`'s row from its graph's row of `M`. -/
def varSum (bv : Fin 100000 → BitVec 32) (A : SN.Idx → EReal) (M : SG.Idx → EReal) (g : Fin 100) (q : Fin 64) : EReal :=
  zero + ∑ n : Fin 100000, if (bv n).toInt = (g.val : Int)
    then (A (ix2 n q) - M (ix2 (graphOf bv n) q)) * (A (ix2 n q) - M (ix2 (graphOf bv n) q)) else 0

/-- The normalised output at node `n`, feature `q`. -/
def normAt (bv : Fin 100000 → BitVec 32) (A : SN.Idx → EReal) (M S : SG.Idx → EReal) (gam bet : Fin 64 → EReal)
    (n : Fin 100000) (q : Fin 64) : EReal :=
  Ideal.div (A (ix2 n q) - M (ix2 (graphOf bv n) q)) (S (ix2 (graphOf bv n) q) + eps) * gam q + bet q

/-- Every node's graph number is one of the 100 graphs. -/
def InRange (bv : Fin 100000 → BitVec 32) : Prop := ∀ n, 0 ≤ (bv n).toInt ∧ (bv n).toInt < 100

end Cert.Spec

end
-- ==== Proof.PreDecode.lean ====
/-
  THE PRECONDITION, DECODED. Besides the finiteness of the float inputs the precondition says that every entry of the
  node-to-graph map, read as a signed 32-bit integer, lies in 0..99: it is the conjunction's last term, a reduction by
  `and` over all nodes of "0 ≤ word and word < 100", so it holds at every node.
-/
import proofs.«103468_j83322365542770_2_alg».proof.Defs
import proofs.«103468_j83322365542770_2_alg».proof.Proof.Spec
import proofs.«103468_j83322365542770_2_alg».proof.Proof.Gen.Pre_finite_inputs
import Idealize.ShloMosaic.Lib.ReduceAll
import Idealize.ShloMosaic.Lib.Affine
import Idealize.ShloMosaic.Lib.ValueIdx

noncomputable section

open Idealize.ShloMosaic Idealize.ShloMosaic.ValueIdx Idealize.SL.Sem

namespace Cert.PreDecode

instance : Subsingleton Cert.Pre_finite_inputs.S_.Idx := ⟨fun a b => funext fun d => d.elim0⟩

/-- The last conjunct of the precondition's function, at any float instance: if the function's one word is 1 then
    every entry of the map is at least 0 and below 100 as a signed integer. -/
theorem range_of_fn {F : FTy → Type} [FloatOps F] [Cert.Pre_finite_inputs.Facts]
    (a0 a1 : FVec F Cert.Pre_finite_inputs.S100000x64 .f32) (a2 : IVec Cert.Pre_finite_inputs.S2x1200000 32)
    (a3 : FVec F Cert.Pre_finite_inputs.S1200000x1 .f32) (a4 : IVec Cert.Pre_finite_inputs.S100000 32)
    (a5 : IVec Cert.Pre_finite_inputs.S100 32) (a6 a7 a8 : FVec F Cert.Pre_finite_inputs.S64x64 .f32)
    (a9 a10 : FVec F Cert.Pre_finite_inputs.S64 .f32)
    (h : Cert.Pre_finite_inputs.fn (F := F) a0 a1 a2 a3 a4 a5 a6 a7 a8 a9 a10 = fun _ => 1#1) :
    Cert.Spec.InRange (fun n => a4 (ix1 n)) := by
  intro n
  have e := congrFun h ix0
  dsimp only [Cert.Pre_finite_inputs.fn, Cert.Pre_finite_inputs.fn_part1, Cert.Pre_finite_inputs.fn_part2] at e
  rw [show ∀ (X Y : IVec Cert.Pre_finite_inputs.S_ 1), andi X Y ix0 = IntOp.andi (X ix0) (Y ix0) from fun _ _ => rfl,
    IntOp.andi_eq_one] at e
  have e2 := Host.reduce_andi_all _ _ _ _ _ e.2 (ix1 n)
  rw [show ∀ (X Y : IVec Cert.Pre_finite_inputs.S100000 1), andi X Y (ix1 n) = IntOp.andi (X (ix1 n)) (Y (ix1 n)) from fun _ _ => rfl,
    IntOp.andi_eq_one] at e2
  obtain ⟨hge, hlt⟩ := e2
  have hge' : IntOp.cmpi .sge (a4 (ix1 n)) (0#32) = 1#1 := hge
  have hlt' : IntOp.cmpi .slt (a4 (ix1 n)) (100#32) = 1#1 := hlt
  rw [IntOp.cmpi_sge] at hge'
  rw [IntOp.cmpi_slt] at hlt'
  exact ⟨by simpa using hge', by simpa using hlt'⟩

end Cert.PreDecode

end
-- ==== Proof.KRunNamed.lean ====
/-
  THE KERNEL'S RUN WITH ITS RESULT NAMED. Every weakly fair execution of the idealized kernel's @main terminates,
  nothing faulting, with the argument arrays as launched and the result array at the contents the generated chain of
  segment boundaries ends with. The run is the generated frame's (the same launch over the same eight segments, the
  last thread state read against the final state); the only addition is that the result buffer, one of the unscoped
  buffers that state holds, is read too.
-/
import proofs.«103468_j83322365542770_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array read at the last boundary's contents and the arguments as launched. -/
theorem run_named : θ_run defs (onTc (τ := τ) (main (F := F))) ⟨m, fun _ => 0, ρ⟩ (fun r => ∀ c : Dev nD,
      r.2.mem ((c.tc : Thread nD τ).loc main_v36) = W8 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.Agg.lean ====
/-
  THE EDGE AGGREGATION, the part both programs spell with the same host operations: gather the transformed features of
  each edge's source node (row 1 of the edge list, a negative number counted from the end), scale the row by the
  edge's weight, and add it into the row of the edge's target node (row 0 of the edge list), from zeros. It is kept as
  ONE function of the transformed features, the edge list and the weights, and never opened: the reference's line
  that computes it is this function of the reference's transformed features.
-/
import proofs.«103468_j83322365542770_2_alg».proof.Proof.RefImports

noncomputable section

open Idealize.ShloMosaic

namespace Cert.Agg

open Cert.ReferenceIdeal Cert.ReferenceIdeal.Gen Cert.ReferenceIdeal.Read

variable {F : FTy → Type} [FloatOps F]

/-- The aggregated features, as a function of the transformed features `h`, the edge list and the edge weights. -/
def agg (h : FVec F S100000x64 .f32) (x2 : IVec S2x1200000 32) (x3 : FVec F S1200000x1 .f32) : FVec F S100000x64 .f32 :=
  Host.scatterAdd scatter_S100000x64_S1200000x1_S1200000x64_1_0_0_1 (val_main_v30 (F := F)) (val_main_v31 (F := F) x2)
    (mulf (val_main_v26 (F := F) x3)
      (Host.gather gather_S100000x64_S1200000x1_S1200000x64_1_0_n_n_0_1_164 h (val_main_v24 (F := F) x2)))

/-- The reference's aggregated features are that function of its transformed features. -/
theorem ref_agg (x0 x1 : FVec F S100000x64 .f32) (x2 : IVec S2x1200000 32) (x3 : FVec F S1200000x1 .f32)
    (x6 x7 x8 : FVec F S64x64 .f32) :
    val_main_v32 (F := F) x0 x1 x2 x3 x6 x7 x8 = agg (val_main_v16 (F := F) x0 x1 x6 x7 x8) x2 x3 := rfl

end Cert.Agg

end
-- ==== Proof.KRun.lean ====
/-
  THE KERNEL'S RUN, READ. The idealized kernel's @main is four pallas_calls among four stretches of host operations.
  Its generated frame follows the buffers' contents through the eight segments; read at the buffers the computation
  passes through, that chain says: the first call leaves the transformed features (Region0), the host aggregates them
  over the edges (Agg), the second call sums the aggregated rows per graph (Region1), the host divides by the graphs'
  node counts, the third call sums the squared deviations per graph (Region2), the host divides by the counts less one
  (at least one) and takes the square root, and the fourth call normalises every node's row (Region3). The result
  array ends holding that last call's output.
-/
import proofs.«103468_j83322365542770_2_alg».proof.Defs
import proofs.«103468_j83322365542770_2_alg».proof.Proof.Gen.KernelIdeal.Frame
import proofs.«103468_j83322365542770_2_alg».proof.Proof.Agg
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.KRun

open Cert.KernelIdeal Cert.KernelIdeal.Gen

variable {F : FTy → Type} [FloatOps F]
variable (m : (ℓ : Loc nD τ sig) → Buf (Elt F) ℓ) (ρ : Dev nD → PrngReg)

/-! ## Before the first call: the three weight matrices transposed -/

theorem W1_v0 (c : Dev nD) : W1 m ρ c (Proc.devRef .tc main_v0)
    = transpose S64x64 [1, 0] (m ((c : Thread nD τ).loc main_arg6)) transposes_S64x64_S64x64_1_0 := by
  show StableHlo.after hostOps0 (W0 m ρ c) (Proc.devRef .tc main_v0) = _
  after_results
  all_goals rfl
theorem W1_v1 (c : Dev nD) : W1 m ρ c (Proc.devRef .tc main_v1)
    = transpose S64x64 [1, 0] (m ((c : Thread nD τ).loc main_arg7)) transposes_S64x64_S64x64_1_0 := by
  show StableHlo.after hostOps0 (W0 m ρ c) (Proc.devRef .tc main_v1) = _
  after_results
  all_goals rfl
theorem W1_v2 (c : Dev nD) : W1 m ρ c (Proc.devRef .tc main_v2)
    = transpose S64x64 [1, 0] (m ((c : Thread nD τ).loc main_arg8)) transposes_S64x64_S64x64_1_0 := by
  show StableHlo.after hostOps0 (W0 m ρ c) (Proc.devRef .tc main_v2) = _
  after_results
  all_goals rfl
theorem W1_arg (c : Dev nD) (b : Ref sig .tc) (hb : b = main_arg0 ∨ b = main_arg1 ∨ b = main_arg2 ∨ b = main_arg3 ∨ b = main_arg4 ∨ b = main_arg5 ∨ b = main_arg9 ∨ b = main_arg10) :
    W1 m ρ c (Proc.devRef .tc b) = m ((c : Thread nD τ).loc b) := by
  rcases hb with rfl | rfl | rfl | rfl | rfl | rfl | rfl | rfl <;>
  · show StableHlo.after hostOps0 (W0 m ρ c) (Proc.devRef .tc _) = _
    after_results
    all_goals rfl

/-! ## After the first call -/

theorem W2_v3 (c : Dev nD) : W2 m ρ c (Proc.devRef .tc main_v3) = (dat0 (V1 m ρ) c).arrAt 5 cfg0.N := W2_arr m ρ c 5

theorem W2_arg (c : Dev nD) (b : Ref sig .tc) (hb : b = main_arg2 ∨ b = main_arg3 ∨ b = main_arg4 ∨ b = main_arg5 ∨ b = main_arg9 ∨ b = main_arg10) :
    W2 m ρ c (Proc.devRef .tc b) = m ((c : Thread nD τ).loc b) := by
  rcases hb with rfl | rfl | rfl | rfl | rfl | rfl
  · exact (W2_of_ne m ρ c main_arg2 (by decide)).trans (W1_arg m ρ c _ (by simp))
  · exact (W2_of_ne m ρ c main_arg3 (by decide)).trans (W1_arg m ρ c _ (by simp))
  · exact (W2_of_ne m ρ c main_arg4 (by decide)).trans (W1_arg m ρ c _ (by simp))
  · exact (W2_of_ne m ρ c main_arg5 (by decide)).trans (W1_arg m ρ c _ (by simp))
  · exact (W2_of_ne m ρ c main_arg9 (by decide)).trans (W1_arg m ρ c _ (by simp))
  · exact (W2_of_ne m ρ c main_arg10 (by decide)).trans (W1_arg m ρ c _ (by simp))

/-! ## The host's aggregation, and the node-to-graph map and the graphs' node counts laid out as columns -/

set_option maxHeartbeats 2000000 in
theorem W3_v19 (c : Dev nD) : W3 m ρ c (Proc.devRef .tc main_v19)
    = Cert.Agg.agg (W2 m ρ c (Proc.devRef .tc main_v3)) (W2 m ρ c (Proc.devRef .tc main_arg2)) (W2 m ρ c (Proc.devRef .tc main_arg3)) := by
  show StableHlo.after hostOps1 (W2 m ρ c) (Proc.devRef .tc main_v19) = _
  after_results
  all_goals rfl
theorem W3_v20 (c : Dev nD) : W3 m ρ c (Proc.devRef .tc main_v20)
    = shapeCast S100000x1 (W2 m ρ c (Proc.devRef .tc main_arg4)) shapeCasts_S100000_S100000x1 := by
  show StableHlo.after hostOps1 (W2 m ρ c) (Proc.devRef .tc main_v20) = _
  after_results
  all_goals rfl
theorem W3_v22 (c : Dev nD) : W3 m ρ c (Proc.devRef .tc main_v22)
    = shapeCast S100x1 (sitofp .f32 (W2 m ρ c (Proc.devRef .tc main_arg5))) shapeCasts_S100_S100x1 := by
  show StableHlo.after hostOps1 (W2 m ρ c) (Proc.devRef .tc main_v22) = _
  after_results
  all_goals rfl
theorem W3_arg9 (c : Dev nD) : W3 m ρ c (Proc.devRef .tc main_arg9) = W2 m ρ c (Proc.devRef .tc main_arg9) := by
  show StableHlo.after hostOps1 (W2 m ρ c) (Proc.devRef .tc main_arg9) = _
  after_results
  all_goals rfl
theorem W3_arg10 (c : Dev nD) : W3 m ρ c (Proc.devRef .tc main_arg10) = W2 m ρ c (Proc.devRef .tc main_arg10) := by
  show StableHlo.after hostOps1 (W2 m ρ c) (Proc.devRef .tc main_arg10) = _
  after_results
  all_goals rfl

/-! ## After the second call -/

theorem W4_v23 (c : Dev nD) : W4 m ρ c (Proc.devRef .tc main_v23) = (dat1 (V3 m ρ) c).arrAt 2 cfg1.N := W4_arr m ρ c 2
theorem W4_v19 (c : Dev nD) : W4 m ρ c (Proc.devRef .tc main_v19) = W3 m ρ c (Proc.devRef .tc main_v19) :=
  (W4_arr m ρ c 0).trans (((dat1 (V3 m ρ) c).arrAt_in 0 rfl _).trans (A_eq1 (V3 m ρ) c 0))
theorem W4_v20 (c : Dev nD) : W4 m ρ c (Proc.devRef .tc main_v20) = W3 m ρ c (Proc.devRef .tc main_v20) :=
  (W4_arr m ρ c 1).trans (((dat1 (V3 m ρ) c).arrAt_in 1 rfl _).trans (A_eq1 (V3 m ρ) c 1))
theorem W4_v22 (c : Dev nD) : W4 m ρ c (Proc.devRef .tc main_v22) = W3 m ρ c (Proc.devRef .tc main_v22) :=
  W4_of_ne m ρ c main_v22 (by decide)
theorem W4_arg9 (c : Dev nD) : W4 m ρ c (Proc.devRef .tc main_arg9) = W3 m ρ c (Proc.devRef .tc main_arg9) :=
  W4_of_ne m ρ c main_arg9 (by decide)
theorem W4_arg10 (c : Dev nD) : W4 m ρ c (Proc.devRef .tc main_arg10) = W3 m ρ c (Proc.devRef .tc main_arg10) :=
  W4_of_ne m ρ c main_arg10 (by decide)

/-! ## The host's division by the node counts -/

theorem W5_v25 (c : Dev nD) : W5 m ρ c (Proc.devRef .tc main_v25)
    = Host.divf (W4 m ρ c (Proc.devRef .tc main_v23))
        (broadcastInDim S100x64 ![0, 1] bcast_S100x1_S100x64_0_1 (W4 m ρ c (Proc.devRef .tc main_v22))) := by
  show StableHlo.after hostOps2 (W4 m ρ c) (Proc.devRef .tc main_v25) = _
  after_results
  all_goals rfl
theorem W5_pass (c : Dev nD) (b : Ref sig .tc) (hb : b = main_v19 ∨ b = main_v20 ∨ b = main_v22 ∨ b = main_arg9 ∨ b = main_arg10) :
    W5 m ρ c (Proc.devRef .tc b) = W4 m ρ c (Proc.devRef .tc b) := by
  rcases hb with rfl | rfl | rfl | rfl | rfl <;>
  · show StableHlo.after hostOps2 (W4 m ρ c) (Proc.devRef .tc _) = _
    after_results
    all_goals rfl

/-! ## After the third call -/

theorem W6_v26 (c : Dev nD) : W6 m ρ c (Proc.devRef .tc main_v26) = (dat2 (V5 m ρ) c).arrAt 3 cfg2.N := W6_arr m ρ c 3
theorem W6_v19 (c : Dev nD) : W6 m ρ c (Proc.devRef .tc main_v19) = W5 m ρ c (Proc.devRef .tc main_v19) :=
  (W6_arr m ρ c 0).trans (((dat2 (V5 m ρ) c).arrAt_in 0 rfl _).trans (A_eq2 (V5 m ρ) c 0))
theorem W6_v20 (c : Dev nD) : W6 m ρ c (Proc.devRef .tc main_v20) = W5 m ρ c (Proc.devRef .tc main_v20) :=
  (W6_arr m ρ c 1).trans (((dat2 (V5 m ρ) c).arrAt_in 1 rfl _).trans (A_eq2 (V5 m ρ) c 1))
theorem W6_v25 (c : Dev nD) : W6 m ρ c (Proc.devRef .tc main_v25) = W5 m ρ c (Proc.devRef .tc main_v25) :=
  (W6_arr m ρ c 2).trans (((dat2 (V5 m ρ) c).arrAt_in 2 rfl _).trans (A_eq2 (V5 m ρ) c 2))
theorem W6_v22 (c : Dev nD) : W6 m ρ c (Proc.devRef .tc main_v22) = W5 m ρ c (Proc.devRef .tc main_v22) :=
  W6_of_ne m ρ c main_v22 (by decide)
theorem W6_arg9 (c : Dev nD) : W6 m ρ c (Proc.devRef .tc main_arg9) = W5 m ρ c (Proc.devRef .tc main_arg9) :=
  W6_of_ne m ρ c main_arg9 (by decide)
theorem W6_arg10 (c : Dev nD) : W6 m ρ c (Proc.devRef .tc main_arg10) = W5 m ρ c (Proc.devRef .tc main_arg10) :=
  W6_of_ne m ρ c main_arg10 (by decide)

/-! ## The host's spread, and the scale and shift laid out as rows -/

theorem W7_v33 (c : Dev nD) : W7 m ρ c (Proc.devRef .tc main_v33)
    = Host.sqrt (Host.divf (W6 m ρ c (Proc.devRef .tc main_v26))
        (broadcastInDim S100x64 ![0, 1] bcast_S100x1_S100x64_0_1
          (maximumf (subf (W6 m ρ c (Proc.devRef .tc main_v22)) (broadcastInDim S100x1 ![] bcast_S_S100x1 (constant S_ .f32 0x3F800000#32)))
            (broadcastInDim S100x1 ![] bcast_S_S100x1 (constant S_ .f32 0x3F800000#32))))) := by
  show StableHlo.after hostOps3 (W6 m ρ c) (Proc.devRef .tc main_v33) = _
  after_results
  all_goals rfl
theorem W7_v34 (c : Dev nD) : W7 m ρ c (Proc.devRef .tc main_v34)
    = shapeCast S1x64 (W6 m ρ c (Proc.devRef .tc main_arg9)) shapeCasts_S64_S1x64 := by
  show StableHlo.after hostOps3 (W6 m ρ c) (Proc.devRef .tc main_v34) = _
  after_results
  all_goals rfl
theorem W7_v35 (c : Dev nD) : W7 m ρ c (Proc.devRef .tc main_v35)
    = shapeCast S1x64 (W6 m ρ c (Proc.devRef .tc main_arg10)) shapeCasts_S64_S1x64 := by
  show StableHlo.after hostOps3 (W6 m ρ c) (Proc.devRef .tc main_v35) = _
  after_results
  all_goals rfl
theorem W7_pass (c : Dev nD) (b : Ref sig .tc) (hb : b = main_v19 ∨ b = main_v20 ∨ b = main_v25) :
    W7 m ρ c (Proc.devRef .tc b) = W6 m ρ c (Proc.devRef .tc b) := by
  rcases hb with rfl | rfl | rfl <;>
  · show StableHlo.after hostOps3 (W6 m ρ c) (Proc.devRef .tc _) = _
    after_results
    all_goals rfl

/-! ## After the fourth call -/

theorem W8_v36 (c : Dev nD) : W8 m ρ c (Proc.devRef .tc main_v36) = (dat3 (V7 m ρ) c).arrAt 6 cfg3.N := W8_arr m ρ c 6

end Cert.KernelIdeal.KRun

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Region0.lean ====
import proofs.«103468_j83322365542770_2_alg».proof.Proof.Gen.KernelIdeal.Frame
import proofs.«103468_j83322365542770_2_alg».proof.Proof.Spec
import proofs.«103468_j83322365542770_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-! ## One dense layer: a [10000, 64] by [64, 64] product into the zero accumulator, read at an entry -/

/-- The left operand is read at the output's row: axis 0 of the left operand is its free axis. -/
theorem dense_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and at the contraction position on its axis 1. -/
theorem dense_lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand is read at the contraction position on its axis 0 -/
theorem dense_rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and at the output's column: axis 1 of the right operand is its free axis. -/
theorem dense_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, q) of the product of a block of rows by a weight matrix: the sum over the 64 contraction positions. -/
theorem dense_apply {φ₁ φ₂ : FTy} (L : FVec Ideal S10000x64 φ₁) (R : FVec Ideal S64x64 φ₂) (r : Fin 10000) (q : Fin 64) :
    FloatOps.matmul dot_S10000x64_S64x64_S10000x64_1_0_0_1_n_n none L R (constant S10000x64 .f32 0x00000000#32) (ix2 r q)
      = ∑ k : Fin 64, L (ix2 r k) * R (ix2 k q) :=
  Cert.DenseLayer.matmul_rows_cols dot_S10000x64_S64x64_S10000x64_1_0_0_1_n_n rfl rfl dense_lhs_row dense_lhs_contr
    dense_rhs_contr dense_rhs_col none L R r q

/-! ## The rectifier on a block, and the body's arithmetic at an entry -/

/-- The body's comparison, scaling and selection at an entry are the leaky rectifier of that entry. -/
theorem leaky_apply (v : FVec Ideal S10000x64 .f32) (i : S10000x64.Idx) :
    (select (cmpf .oge v (broadcast S10000x64 (Scalar.ofBits (F := Ideal) .f32 0x00000000#32))) v
      (mulf (broadcast S10000x64 (Scalar.ofBits (F := Ideal) .f32 0x3C23D70A#32)) v) : FVec Ideal S10000x64 .f32) i = Cert.Spec.leaky (v i) := rfl

/-- The first layer at an entry: the own features plus the neighbours' features through the first weight matrix
    (narrowing to the short float format is the identity over the extended reals). -/
theorem first_layer_apply (x0 x1 : FVec Ideal S10000x64 .f32) (a : FVec Ideal S64x64 .f32) (r : Fin 10000) (k2 : Fin 64) :
    (addf x0 (FloatOps.matmul dot_S10000x64_S64x64_S10000x64_1_0_0_1_n_n none (truncf .bf16 x1 bitsLt_bf16_f32)
      (truncf .bf16 (shapeCast S64x64 a shapeCasts_S64x64_S64x64) bitsLt_bf16_f32) (constant S10000x64 .f32 0x00000000#32)) : FVec Ideal S10000x64 .f32) (ix2 r k2)
      = x0 (ix2 r k2) + ∑ k1 : Fin 64, x1 (ix2 r k1) * a (ix2 k1 k2) := by
  refine congrArg (x0 (ix2 r k2) + ·) ((dense_apply _ _ r k2).trans (Finset.sum_congr rfl fun k1 _ => ?_))
  show x1 (ix2 r k1) * shapeCast S64x64 a shapeCasts_S64x64_S64x64 (ix2 k1 k2) = _
  rw [shapeCast_self]

/-- A later layer at an entry: the rectified block through the weight matrix. -/
theorem rectified_layer_apply (h : FVec Ideal S10000x64 .f32) (w : FVec Ideal S64x64 .f32) (r : Fin 10000) (q : Fin 64) :
    FloatOps.matmul dot_S10000x64_S64x64_S10000x64_1_0_0_1_n_n none
      (truncf .bf16 (select (cmpf .oge h (broadcast S10000x64 (Scalar.ofBits (F := Ideal) .f32 0x00000000#32))) h
        (mulf (broadcast S10000x64 (Scalar.ofBits (F := Ideal) .f32 0x3C23D70A#32)) h) : FVec Ideal S10000x64 .f32) bitsLt_bf16_f32)
      (truncf .bf16 (shapeCast S64x64 w shapeCasts_S64x64_S64x64) bitsLt_bf16_f32) (constant S10000x64 .f32 0x00000000#32) (ix2 r q)
      = ∑ k : Fin 64, Cert.Spec.leaky (h (ix2 r k)) * w (ix2 k q) := by
  refine (dense_apply _ _ r q).trans (Finset.sum_congr rfl fun k _ => ?_)
  show Cert.Spec.leaky (h (ix2 r k)) * shapeCast S64x64 w shapeCasts_S64x64_S64x64 (ix2 k q) = _
  rw [shapeCast_self]

/-- The body's arithmetic at row r, feature q of the block: three dense layers, the first two rectified. -/
theorem payload_apply (x0 x1 : Vec Ideal S10000x64 .f32) (a b c : Vec Ideal S64x64 .f32) (r : Fin 10000) (q : Fin 64) :
    k0_pay1 (F := Ideal) x0 x1 a b c (ix2 r q)
      = ∑ k3 : Fin 64, Cert.Spec.leaky (∑ k2 : Fin 64, Cert.Spec.leaky (x0 (ix2 r k2) + ∑ k1 : Fin 64, x1 (ix2 r k1) * a (ix2 k1 k2)) * b (ix2 k2 k3)) * c (ix2 k3 q) := by
  unfold k0_pay1
  refine (rectified_layer_apply _ c r q).trans (Finset.sum_congr rfl fun k3 _ => congrArg (fun v => Cert.Spec.leaky v * c (ix2 k3 q)) ?_)
  refine (rectified_layer_apply _ b r k3).trans (Finset.sum_congr rfl fun k2 _ => congrArg (fun v => Cert.Spec.leaky v * b (ix2 k2 k3)) ?_)
  exact first_layer_apply x0 x1 a r k2

/-! ## From the blocks to the array -/

theorem hz : (![0, 0] : Fin 2 → Nat) = fun _ => 0 := funext fun a => by fin_cases a <;> rfl

/-- The block index of every window at every point: the two feature arrays and the result move down the rows with the
    point, the three weight matrices stay at their one block (decided over the 10 points). -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- The own-features block at point t is rows 10000 t … 10000 t + 9999 of its array. -/
theorem own_block_apply (c : Dev nD) (t : Fin cfg0.N) (x : S10000x64.Idx) (k : S100000x64.Idx)
    (hk0 : (k 0).val = 10000 * t.val + (x 0).val) (hk1 : (k 1).val = (x 1).val) :
    (iblk0 V c 0 t : Vec Ideal S10000x64 .f32) x = (V c main_arg0 : S100000x64.Idx → EReal) k := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 64 + 1 * (x 1).val = (k 1).val; rw [e1, hk1]; omega

/-- The neighbours'-features block at point t is the same rows of its array. -/
theorem nbr_block_apply (c : Dev nD) (t : Fin cfg0.N) (x : S10000x64.Idx) (k : S100000x64.Idx)
    (hk0 : (k 0).val = 10000 * t.val + (x 0).val) (hk1 : (k 1).val = (x 1).val) :
    (iblk0 V c 1 t : Vec Ideal S10000x64 .f32) x = (V c main_arg1 : S100000x64.Idx → EReal) k := by
  obtain ⟨-, -, e0, e1, -⟩ := index_facts t
  unfold iblk0
  rw [View.read_apply]
  show V c main_arg1 _ = V c main_arg1 _
  congr 1
  funext a
  apply Fin.ext
  match a with
  | ⟨0, _⟩ => show win0_1.index t 0 * 10000 + 1 * (x 0).val = (k 0).val; rw [e0, hk0]; omega
  | ⟨1, _⟩ => show win0_1.index t 1 * 64 + 1 * (x 1).val = (k 1).val; rw [e1, hk1]; omega

/-- Each weight matrix is staged whole: its block at any point is the matrix. -/
theorem weight_block_a (c : Dev nD) (t : Fin cfg0.N) :
    (iblk0 V c 2 t : Vec Ideal S64x64 .f32) = (V c main_v0 : S64x64.Idx → EReal) := by
  obtain ⟨-, -, -, -, e0, e1, -⟩ := index_facts t
  funext x
  unfold iblk0
  rw [View.read_apply]
  show V c main_v0 _ = V c main_v0 x
  congr 1
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega
theorem weight_block_b (c : Dev nD) (t : Fin cfg0.N) :
    (iblk0 V c 3 t : Vec Ideal S64x64 .f32) = (V c main_v1 : S64x64.Idx → EReal) := by
  obtain ⟨-, -, -, -, -, -, e0, e1, -⟩ := index_facts t
  funext x
  unfold iblk0
  rw [View.read_apply]
  show V c main_v1 _ = V c main_v1 x
  congr 1
  funext a
  apply Fin.ext
  match a with
  | ⟨0, _⟩ => show win0_3.index t 0 * 64 + 1 * (x 0).val = (x 0).val; rw [e0]; omega
  | ⟨1, _⟩ => show win0_3.index t 1 * 64 + 1 * (x 1).val = (x 1).val; rw [e1]; omega
theorem weight_block_c (c : Dev nD) (t : Fin cfg0.N) :
    (iblk0 V c 4 t : Vec Ideal S64x64 .f32) = (V c main_v2 : S64x64.Idx → EReal) := by
  obtain ⟨-, -, -, -, -, -, -, -, e0, e1, -⟩ := index_facts t
  funext x
  unfold iblk0
  rw [View.read_apply]
  show V c main_v2 _ = V c main_v2 x
  congr 1
  funext a
  apply Fin.ext
  match a with
  | ⟨0, _⟩ => show win0_4.index t 0 * 64 + 1 * (x 0).val = (x 0).val; rw [e0]; omega
  | ⟨1, _⟩ => show win0_4.index t 1 * 64 + 1 * (x 1).val = (x 1).val; rw [e1]; omega

end Blocks

/-- The body's result at entry j of a block whose rows are rows of two arrays: the feature transform of those arrays
    at the array's row and the same feature. -/
theorem block_value (x0 x1 : Vec Ideal S10000x64 .f32) (a b c : Vec Ideal S64x64 .f32) (X0 X1 : S100000x64.Idx → EReal)
    (j : S10000x64.Idx) (i : S100000x64.Idx) (hq : (i 1).val = (j 1).val)
    (h0 : ∀ k : Fin 64, x0 (ix2 (j 0) k) = X0 (ix2 (i 0) k)) (h1 : ∀ k : Fin 64, x1 (ix2 (j 0) k) = X1 (ix2 (i 0) k)) :
    k0_pay1 (F := Ideal) x0 x1 a b c j = Cert.Spec.mlp X0 X1 a b c (i 0) (i 1) := by
  have hq' : i 1 = j 1 := Fin.ext hq
  rw [hq']
  refine (congrArg (k0_pay1 (F := Ideal) x0 x1 a b c) (eq_ix2 j)).trans ((payload_apply x0 x1 a b c (j 0) (j 1)).trans ?_)
  unfold Cert.Spec.mlp
  simp only [h0, h1]

/-- The result array as one function of the five arrays the call reads. -/
abbrev mlpArr (V : (c : Dev nD) → (b : Ref sig .tc) → Buf (Elt Ideal) ((c : Thread nD τ).loc b)) (c : Dev nD) : S100000x64.Idx → EReal :=
  fun i => Cert.Spec.mlp (V c main_arg0) (V c main_arg1) (V c main_v0) (V c main_v1) (V c main_v2) (i 0) (i 1)

/-- What point t writes back is block t of that function. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal) (mlpArr V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz]
  rw [weight_block_a, weight_block_b, weight_block_c]
  obtain ⟨-, -, -, -, -, -, -, -, -, -, e0, e1⟩ := index_facts t
  funext j
  show k0_pay1 (F := Ideal) (iblk0 V c 0 t) (iblk0 V c 1 t) (V c main_v0) (V c main_v1) (V c main_v2) j
    = mlpArr V c (((cfg0.win 5).blk t).view.emb j)
  refine block_value (iblk0 V c 0 t) (iblk0 V c 1 t) (V c main_v0) (V c main_v1) (V c main_v2) (V c main_arg0) (V c main_arg1)
    j (((cfg0.win 5).blk t).view.emb j) ?_ (fun k => own_block_apply V c t _ _ ?_ rfl) (fun k => nbr_block_apply V c t _ _ ?_ rfl)
  · show win0_5.index t 1 * 64 + 1 * (j 1).val = (j 1).val
    rw [e1]; omega
  · show win0_5.index t 0 * 10000 + 1 * (j 0).val = 10000 * t.val + (j 0).val
    rw [e0]; omega
  · show win0_5.index t 0 * 10000 + 1 * (j 0).val = 10000 * t.val + (j 0).val
    rw [e0]; omega

/-- An index of the result array is in point t's block iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v3).slice (win0_5.rect t)).set ↔ _
  rw [View.set_slice_whole, Rect.mem_set_unit]
  exact Iff.rfl

/-- Every row is in the block of the point numbered by its ten-thousands. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, -, -, -, -, e0, e1⟩ := index_facts ⟨(i 0).val / 10000, ht⟩
  refine ⟨⟨(i 0).val / 10000, ht⟩, flush0_5 _, ?_⟩
  rw [mem_block]
  intro a
  match a with
  | ⟨0, _⟩ =>
    show win0_5.index ⟨(i 0).val / 10000, ht⟩ 0 * 10000 ≤ (i 0).val ∧ (i 0).val < win0_5.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ 1 * 64 ≤ (i 1).val ∧ (i 1).val < win0_5.index ⟨(i 0).val / 10000, ht⟩ 1 * 64 + 64
    rw [e1]; omega

/-- What the first call leaves in its result array, entry by entry: the feature transform of the arrays it was given. -/
theorem value (V : (c : Dev nD) → (b : Ref sig .tc) → Buf (Elt Ideal) ((c : Thread nD τ).loc b)) (c : Dev nD) (n : Fin 100000) (q : Fin 64) :
    ((dat0 (F := Ideal) V c).arrAt 5 cfg0.N : S100000x64.Idx → EReal) (ix2 n q)
      = Cert.Spec.mlp (V c main_arg0) (V c main_arg1) (V c main_v0) (V c main_v1) (V c main_v2) n q := by
  have h := (dat0 (F := Ideal) V c).arrAt_eq_of_cover 5 (mlpArr V c) (fun t _ => flushed_eq V c t) covered
  exact congrFun h (ix2 n q)

end Cert.KernelIdeal.Region0

end
-- ==== Proof.LibMatmulCols.lean ====
/-
  A rank-2 matrix product whose contraction runs along the FIRST axis of both operands, read at an entry.

  `matmul_cols_cols`: a matrix unit's product of a [K, A] by a [K, B] matrix into a zero accumulator, contracting
  axis 0 of the left operand with axis 0 of the right one, read at (p, q), is ∑ k, L(k,p) · R(k,q): COLUMN p of the
  left operand times column q of the right one (the product of the left operand's transpose with the right operand).
  Stated for any dimension record whose four index facts (the left index takes the contraction position and the output
  row, the right index the contraction position and the output column) are supplied.
-/
import Idealize.ShloMosaic.Lib.ValueIdx
import Idealize.ShloMosaic.Lib.Pipeline.Value
import Idealize.ShloMosaic.PureOps.Ideal.Laws

noncomputable section

namespace Cert.MatmulCols

open Idealize.ShloMosaic Idealize.ShloMosaic.ValueIdx

/-- A matrix product into a zero accumulator that contracts the first axis of both operands, read at (p, q): the sum
    over the contracted axis of the left operand's column p times the right operand's column q. -/
theorem matmul_cols_cols {A K B : ℕ} {φ₁ φ₂ : FTy}
    (d : DotDims ⟨2, ![K, A]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (q ⟨0, by omega⟩).val)
    (hl1 : ∀ (i : (⟨2, ![A, B]⟩ : Shape).Idx) (q : d.contr.Idx), (d.lhsIdx i q 1).val = (i 0).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![K, A]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 k p) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.MatmulCols

end
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.Region1.lean ====
import proofs.«103468_j83322365542770_2_alg».proof.Proof.Gen.KernelIdeal.Frame
import proofs.«103468_j83322365542770_2_alg».proof.Proof.Spec
import proofs.«103468_j83322365542770_2_alg».proof.Proof.LibMatmulCols
import proofs.«103468_j83322365542770_2_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

section Cases

variable {F : FTy → Type} [FloatOps F]

theorem hz : (![0, 0] : Fin 2 → Nat) = fun _ => 0 := funext fun a => by fin_cases a <;> rfl

/-- After a point other than the first, the block holds what it held plus the point's product. -/
theorem out_B (c : Dev nD) (i : grid1.Coords) (a1 : Memref sig .tc .vmem S5000x64 .f32) (h1 : a1.IsWhole)
    (a2 : Memref sig .tc .vmem S5000x1 .i32) (h2 : a2.IsWhole) (a3 : Memref sig .tc .vmem S100x64 .f32) (h3 : a3.IsWhole)
    (hc : ¬cond1_0 i) (x0 : Vec F S5000x64 .f32) (x1 : Vec F S5000x1 .i32) (xo : Vec F S100x64 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread, View.ld_unit_zero (S := S5000x64) hz,
    View.ld_unit_zero (S := S5000x1) hz, View.ld_unit_zero (S := S100x64) hz]

/-- After the first point, the block holds the zero block plus the point's product. -/
theorem out_A (c : Dev nD) (i : grid1.Coords) (a1 : Memref sig .tc .vmem S5000x64 .f32) (h1 : a1.IsWhole)
    (a2 : Memref sig .tc .vmem S5000x1 .i32) (h2 : a2.IsWhole) (a3 : Memref sig .tc .vmem S100x64 .f32) (h3 : a3.IsWhole)
    (hc : cond1_0 i) (x0 : Vec F S5000x64 .f32) (x1 : Vec F S5000x1 .i32) :
    out1_A_2 c i a1 h1 a2 h2 a3 h3 hc x0 x1 = k1_pay2 x0 x1 k1_pay1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S100x64) hz, View.readCov_unit_zero (S := S100x64) _ hz]
  simp only [View.readAt_eq_ld, h1.read_unread, h2.read_unread, View.ld_unit_zero (S := S5000x64) hz,
    View.ld_unit_zero (S := S5000x1) hz]

end Cases

/-! ## The point's arithmetic, entry by entry, over the extended reals -/

/-- Comparing two words for equality gives the one-bit word 1 when they are equal, 0 otherwise. -/
theorem cmpi_eq_ite (x y : BitVec 32) : IntOp.cmpi .eq x y = if x = y then 1#1 else 0#1 := by
  unfold IntOp.cmpi
  by_cases h : x = y
  · subst h; simp
  · rw [if_neg h]
    show BitVec.ofBool (x == y) = 0#1
    rw [beq_eq_false_iff_ne.mpr h]
    rfl

/-- A graph number below 100, written as a 32-bit word and read signed, is itself. -/
theorem toInt_ofNat_graph (g : Fin 100) : (BitVec.ofNat 32 g.val).toInt = (g.val : Int) := by
  have hg := g.isLt
  have hn : (BitVec.ofNat 32 g.val).toNat = g.val := by
    rw [BitVec.toNat_ofNat]; exact Nat.mod_eq_of_lt (by omega)
  rw [BitVec.toInt_eq_toNat_of_lt (by rw [hn]; omega), hn]

/-- The one-hot entry: a node's word compared with graph number g's word, widened and converted, is 1 when the word's
    signed value is g and 0 otherwise. -/
theorem onehot_scalar (b : BitVec 32) (g : Fin 100) :
    (FloatOps.sitofp (F := Ideal) .f32 ((IntOp.cmpi .eq b (BitVec.ofNat 32 g.val)).setWidth 32) : EReal)
      = if b.toInt = (g.val : Int) then 1 else 0 := by
  show ((((IntOp.cmpi .eq b (BitVec.ofNat 32 g.val)).setWidth 32).toInt : ℝ) : EReal) = _
  rw [cmpi_eq_ite]
  by_cases h : b.toInt = (g.val : Int)
  · have hb : b = BitVec.ofNat 32 g.val := BitVec.eq_of_toInt_eq (h.trans (toInt_ofNat_graph g).symm)
    rw [if_pos h, if_pos hb, show ((1#1 : BitVec 1).setWidth 32).toInt = 1 from by decide]
    norm_num
  · have hb : b ≠ BitVec.ofNat 32 g.val := fun hb => h (hb ▸ toInt_ofNat_graph g)
    rw [if_neg h, if_neg hb, show ((0#1 : BitVec 1).setWidth 32).toInt = 0 from by decide]
    norm_num

/-- The one-hot matrix of a block of graph words, at (row r, graph g). -/
theorem onehot_apply (x1 : Vec Ideal S5000x1 .i32) (r : Fin 5000) (g : Fin 100) :
    (sitofp .f32 (extui 32 (cmpi .eq
        (broadcastTo S5000x100 (shapeCast S5000x1 x1 shapeCasts_S5000x1_S5000x1) broadcasts_S5000x1_S5000x100)
        (iota .tc S5000x100 32 [1] iota_S5000x100_d1_w32)) natLt_1_32) : FVec Ideal S5000x100 .f32) (ix2 r g)
      = if (x1 (ix2 r 0) : BitVec 32).toInt = (g.val : Int) then 1 else 0 := by
  have e1 : iota .tc S5000x100 32 [1] iota_S5000x100_d1_w32 (ix2 r g) = BitVec.ofNat 32 g.val :=
    iota_single_apply .tc S5000x100 32 1 iota_S5000x100_d1_w32 (ix2 r g)
  have e2 : broadcastTo S5000x100 (shapeCast S5000x1 x1 shapeCasts_S5000x1_S5000x1) broadcasts_S5000x1_S5000x100 (ix2 r g)
      = x1 (ix2 r 0) :=
    (broadcastTo_apply _ _ (ix2 r g) (ix2 r 0) (fun a => by match a with | ⟨0, _⟩ => rfl | ⟨1, _⟩ => rfl)).trans
      (congrFun (shapeCast_self x1 _) _)
  show FloatOps.sitofp (F := Ideal) .f32 ((IntOp.cmpi .eq
      (broadcastTo S5000x100 (shapeCast S5000x1 x1 shapeCasts_S5000x1_S5000x1) broadcasts_S5000x1_S5000x100 (ix2 r g))
      (iota .tc S5000x100 32 [1] iota_S5000x100_d1_w32 (ix2 r g))).setWidth 32) = _
  rw [e1, e2]
  exact onehot_scalar _ g

/-- The zero block at an entry is the float zero. -/
theorem pay1_apply (i : S100x64.Idx) : (k1_pay1 (F := Ideal) : S100x64.Idx → EReal) i = Cert.Spec.zero := rfl

/-- The product's index maps: the left operand is read at (contraction position, output row), the right operand at
    (contraction position, output column). -/
theorem dot_l0 (i : S100x64.Idx) (k : dot_S5000x100_S5000x64_S100x64_0_0_1_1_n_n.contr.Idx) :
    (dot_S5000x100_S5000x64_S100x64_0_0_1_1_n_n.lhsIdx i k 0).val = (k ⟨0, by decide⟩).val := by
  simp [DotDims.lhsIdx, dot_S5000x100_S5000x64_S100x64_0_0_1_1_n_n]; rfl
theorem dot_l1 (i : S100x64.Idx) (k : dot_S5000x100_S5000x64_S100x64_0_0_1_1_n_n.contr.Idx) :
    (dot_S5000x100_S5000x64_S100x64_0_0_1_1_n_n.lhsIdx i k 1).val = (i 0).val := by
  simp [DotDims.lhsIdx, dot_S5000x100_S5000x64_S100x64_0_0_1_1_n_n]; rfl
theorem dot_r0 (i : S100x64.Idx) (k : dot_S5000x100_S5000x64_S100x64_0_0_1_1_n_n.contr.Idx) :
    (dot_S5000x100_S5000x64_S100x64_0_0_1_1_n_n.rhsIdx i k 0).val = (k ⟨0, by decide⟩).val := by
  simp [DotDims.rhsIdx, dot_S5000x100_S5000x64_S100x64_0_0_1_1_n_n]; rfl
theorem dot_r1 (i : S100x64.Idx) (k : dot_S5000x100_S5000x64_S100x64_0_0_1_1_n_n.contr.Idx) :
    (dot_S5000x100_S5000x64_S100x64_0_0_1_1_n_n.rhsIdx i k 1).val = (i 1).val := by
  simp [DotDims.rhsIdx, dot_S5000x100_S5000x64_S100x64_0_0_1_1_n_n]; rfl

/-- The point's product: entry (g, q) of the new block is the old entry plus the sum, over the 5000 rows of the point's
    blocks, of the row's entry q where the row's graph word has value g. -/
theorem pay2_apply (x0 : Vec Ideal S5000x64 .f32) (x1 : Vec Ideal S5000x1 .i32) (acc : Vec Ideal S100x64 .f32)
    (g : Fin 100) (q : Fin 64) :
    (k1_pay2 (F := Ideal) x0 x1 acc : S100x64.Idx → EReal) (ix2 g q)
      = (acc (ix2 g q) : EReal)
        + ∑ r : Fin 5000, if (x1 (ix2 r 0) : BitVec 32).toInt = (g.val : Int) then (x0 (ix2 r q) : EReal) else 0 := by
  unfold k1_pay2
  dsimp only
  refine (addf_apply _ _ _).trans ?_
  refine congrArg₂ (· + ·) (congrFun (shapeCast_self acc _) _) ?_
  refine (Cert.MatmulCols.matmul_cols_cols (A := 100) (K := 5000) (B := 64) (φ₁ := .f32) (φ₂ := .f32)
    dot_S5000x100_S5000x64_S100x64_0_0_1_1_n_n rfl rfl dot_l0 dot_l1 dot_r0 dot_r1 (some .fp32) _ _ g q).trans ?_
  refine Finset.sum_congr rfl fun r _ => ?_
  rw [onehot_apply x1 r g, congrFun (shapeCast_self x0 shapeCasts_S5000x64_S5000x64) (ix2 r q)]
  by_cases h : (x1 (ix2 r 0) : BitVec 32).toInt = (g.val : Int)
  · rw [if_pos h, if_pos h, one_mul]
  · rw [if_neg h, if_neg h, zero_mul]

/-! ## The block after each point: the float zero plus the points' products so far -/

section Points

variable (V : (c : Dev nD) → (b : Ref sig .tc) → Buf (Elt Ideal) ((c : Thread nD τ).loc b))

/-- What point n adds to entry (g, q): the sum over the 5000 rows of its blocks of the row's entry q where the row's
    graph word has value g (nothing beyond the grid). -/
def term (c : Dev nD) (g : Fin 100) (q : Fin 64) (n : ℕ) : EReal :=
  if h : n < cfg1.N then
    ∑ r : Fin 5000, if ((iblk1 V c 1 ⟨n, h⟩ : Vec Ideal S5000x1 .i32) (ix2 r 0) : BitVec 32).toInt = (g.val : Int)
      then ((iblk1 V c 0 ⟨n, h⟩ : Vec Ideal S5000x64 .f32) (ix2 r q) : EReal) else 0
  else 0

/-- After point n the block's entry (g, q) is the float zero plus what the points 0 … n added: by induction on the
    point, the first point storing the zero block first, every later one reading what the point before left. -/
theorem outsAt_eq (c : Dev nD) (g : Fin 100) (q : Fin 64) : ∀ (n : ℕ) (h : n < cfg1.N),
    (outsAt1 (F := Ideal) V c n h : S100x64.Idx → EReal) (ix2 g q)
      = Cert.Spec.zero + ∑ s ∈ Finset.range (n + 1), term V c g q s
  | 0, h => by
    have e : outsAt1 (F := Ideal) V c 0 h = k1_pay2 (iblk1 V c 0 ⟨0, h⟩) (iblk1 V c 1 ⟨0, h⟩) (k1_pay1 (F := Ideal)) :=
      (outsAt1_A V c ⟨0, h⟩ rfl).trans (out_A (F := Ideal) c (grid1.coords ⟨0, h⟩) (ms1_0 ⟨0, h⟩) (hs1_0 ⟨0, h⟩)
        (ms1_1 ⟨0, h⟩) (hs1_1 ⟨0, h⟩) (ms1_2 ⟨0, h⟩) (hs1_2 ⟨0, h⟩) ((hcond1_0 ⟨0, h⟩).mpr rfl)
        (iblk1 V c 0 ⟨0, h⟩) (iblk1 V c 1 ⟨0, h⟩))
    rw [e]
    refine (pay2_apply (iblk1 V c 0 ⟨0, h⟩) (iblk1 V c 1 ⟨0, h⟩) (k1_pay1 (F := Ideal)) g q).trans ?_
    rw [pay1_apply, Finset.sum_range_one, term, dif_pos h]
  | n + 1, h => by
    have hN : cfg1.N = 20 := N_1
    have hB : ¬(⟨n + 1, h⟩ : Fin cfg1.N).val % 20 = 0 := by dsimp only; omega
    have e : outsAt1 (F := Ideal) V c (n + 1) h
        = k1_pay2 (iblk1 V c 0 ⟨n + 1, h⟩) (iblk1 V c 1 ⟨n + 1, h⟩) (outsAt1 V c n (Nat.lt_of_succ_lt h)) :=
      (outsAt1_B V c ⟨n + 1, h⟩ hB).trans (out_B (F := Ideal) c (grid1.coords ⟨n + 1, h⟩) (ms1_0 ⟨n + 1, h⟩)
        (hs1_0 ⟨n + 1, h⟩) (ms1_1 ⟨n + 1, h⟩) (hs1_1 ⟨n + 1, h⟩) (ms1_2 ⟨n + 1, h⟩) (hs1_2 ⟨n + 1, h⟩)
        (fun hh => hB ((hcond1_0 ⟨n + 1, h⟩).mp hh)) (iblk1 V c 0 ⟨n + 1, h⟩) (iblk1 V c 1 ⟨n + 1, h⟩)
        (outsAt1 V c n (Nat.lt_of_succ_lt h)))
    rw [e]
    refine (pay2_apply (iblk1 V c 0 ⟨n + 1, h⟩) (iblk1 V c 1 ⟨n + 1, h⟩) (outsAt1 V c n (Nat.lt_of_succ_lt h)) g q).trans ?_
    rw [outsAt_eq c g q n (Nat.lt_of_succ_lt h), Finset.sum_range_succ _ (n + 1), add_assoc]
    refine congrArg (fun x => Cert.Spec.zero + ((∑ s ∈ Finset.range (n + 1), term V c g q s) + x)) ?_
    rw [term, dif_pos h]

end Points

/-! ## The one write-back, and the result array -/

section Result

variable (V : (c : Dev nD) → (b : Ref sig .tc) → Buf (Elt Ideal) ((c : Thread nD τ).loc b))

/-- The last point. -/
def t19 : Fin cfg1.N := ⟨19, by rw [show cfg1.N = 20 from N_1]; decide⟩

/-- What the block holds after the last point, as contents of the result array (its one block is the whole array). -/
abbrev result (c : Dev nD) : Buf (Elt Ideal) ((c : Thread nD τ).loc main_v23) := outsAt1 V c 19 t19.isLt

/-- The one write-back, at the last point, writes it: block (0, 0) of the [100,64] array is the array. -/
theorem flushed_eq (c : Dev nD) (t : Fin cfg1.N) (hf : (cfg1.win 2).flush t = true) :
    (dat1 V c).flushed 2 t = ((cfg1.win 2).blk t).view.read (Elt Ideal) (result V c) := by
  have hN : cfg1.N = 20 := N_1
  have h3 : t.val = 19 := by have := (flush1_2 t).mp hf; have := t.isLt; omega
  obtain rfl : t = t19 := Fin.ext h3
  show (cfg1.win 2).cut (grid1.coords t19) ((dat1 V c).after 2 t19) = _
  rw [after1_2]
  have hz' : (fun a => win1_2.index t19 a * main_v23.ty.shape.size a) = fun _ => 0 :=
    funext fun a => by fin_cases a <;> decide +kernel
  exact (Memref.read_access_unit_zero (Elt Ideal) main_v23 hz' (fun a => by rw [congrFun hz' a]; simp) (result V c)).symm

/-- So the result array ends holding what the block held after the last point. -/
theorem final_o (c : Dev nD) : (dat1 V c).arrAt 2 cfg1.N = result V c :=
  (dat1 V c).arrAt_eq_of_cover 2 (result V c) (flushed_eq V c) fun i =>
    ⟨t19, (flush1_2 t19).mpr rfl, by
      show i ∈ ((View.whole main_v23).slice (win1_2.rect t19)).set
      rw [View.set_slice_whole, Rect.mem_set_unit]
      intro a
      have h0 : (i 0 : Nat) < 100 := (i 0).isLt
      have h1 : (i 1 : Nat) < 64 := (i 1).isLt
      match a with
      | ⟨0, _⟩ =>
        show win1_2.index t19 0 * win1_2.size 0 ≤ (i 0 : Nat)
          ∧ (i 0 : Nat) < win1_2.index t19 0 * win1_2.size 0 + win1_2.xsize (grid1.coords t19) 0
        rw [show win1_2.index t19 0 * win1_2.size 0 = 0 from by decide +kernel,
          show win1_2.xsize (grid1.coords t19) 0 = 100 from by decide +kernel]
        omega
      | ⟨1, _⟩ =>
        show win1_2.index t19 1 * win1_2.size 1 ≤ (i 1 : Nat)
          ∧ (i 1 : Nat) < win1_2.index t19 1 * win1_2.size 1 + win1_2.xsize (grid1.coords t19) 1
        rw [show win1_2.index t19 1 * win1_2.size 1 = 0 from by decide +kernel,
          show win1_2.xsize (grid1.coords t19) 1 = 64 from by decide +kernel]
        omega⟩

end Result

/-! ## The blocks are consecutive rows of the arrays, and the twenty points' sums are the sum over all rows -/

section Rows

variable (V : (c : Dev nD) → (b : Ref sig .tc) → Buf (Elt Ideal) ((c : Thread nD τ).loc b))

/-- The windows' block indices at point t: block t along the rows, block 0 along the columns. -/
theorem index_0 : ∀ t : Fin grid1.N, win1_0.index t 0 = t.val ∧ win1_0.index t 1 = 0 := by decide +kernel
theorem index_1 : ∀ t : Fin grid1.N, win1_1.index t 0 = t.val ∧ win1_1.index t 1 = 0 := by decide +kernel

/-- Row 5000 t + r is a row of the arrays. -/
theorem row_lt (t : Fin cfg1.N) (r : Fin 5000) : 5000 * t.val + r.val < 100000 := by
  have hN : cfg1.N = 20 := N_1
  have := t.isLt
  have := r.isLt
  omega

/-- The feature block at point t, row r, is row 5000 t + r of the feature array. -/
theorem iblk0_apply (c : Dev nD) (t : Fin cfg1.N) (r : Fin 5000) (q : Fin 64) :
    ((iblk1 V c 0 t : Vec Ideal S5000x64 .f32) (ix2 r q) : EReal)
      = (V c main_v19 : S100000x64.Idx → EReal) (ix2 ⟨5000 * t.val + r.val, row_lt t r⟩ q) := by
  unfold iblk1
  rw [View.read_apply]
  show V c main_v19 _ = V c main_v19 _
  congr 1
  funext a
  apply Fin.ext
  match a with
  | ⟨0, _⟩ => show win1_0.index t 0 * 5000 + 1 * r.val = 5000 * t.val + r.val; rw [(index_0 t).1]; omega
  | ⟨1, _⟩ => show win1_0.index t 1 * 64 + 1 * q.val = q.val; rw [(index_0 t).2]; omega

/-- The graph-word block at point t, row r, is row 5000 t + r of the graph-word array. -/
theorem iblk1_apply (c : Dev nD) (t : Fin cfg1.N) (r : Fin 5000) :
    ((iblk1 V c 1 t : Vec Ideal S5000x1 .i32) (ix2 r 0) : BitVec 32)
      = (V c main_v20 : S100000x1.Idx → BitVec 32) (ix2 ⟨5000 * t.val + r.val, row_lt t r⟩ 0) := by
  unfold iblk1
  rw [View.read_apply]
  show V c main_v20 _ = V c main_v20 _
  congr 1
  funext a
  apply Fin.ext
  match a with
  | ⟨0, _⟩ => show win1_1.index t 0 * 5000 + 1 * r.val = 5000 * t.val + r.val; rw [(index_1 t).1]; omega
  | ⟨1, _⟩ => show win1_1.index t 1 * 1 + 1 * 0 = 0; rw [(index_1 t).2]

/-- 100000 rows as 20 blocks of 5000. -/
theorem sum_20x5000 {M : Type*} [AddCommMonoid M] (H : Fin 100000 → M) :
    ∑ n : Fin 100000, H n = ∑ t : Fin 20, ∑ r : Fin 5000, H ⟨5000 * t.val + r.val, by omega⟩ :=
  Cert.BlockedSum.sum_by_blocks (N := 20) (R := 5000) H

end Rows

/-- What the second call leaves in its result array, entry by entry: the per-graph sums of the rows it was given. -/
theorem value (V : (c : Dev nD) → (b : Ref sig .tc) → Buf (Elt Ideal) ((c : Thread nD τ).loc b)) (c : Dev nD) (g : Fin 100) (q : Fin 64) :
    ((dat1 (F := Ideal) V c).arrAt 2 cfg1.N : S100x64.Idx → EReal) (ix2 g q)
      = Cert.Spec.segSum (fun n => (V c main_v20 : S100000x1.Idx → BitVec 32) (ix2 n 0)) (V c main_v19) g q := by
  have hN : cfg1.N = 20 := N_1
  rw [final_o V c]
  refine (outsAt_eq V c g q 19 t19.isLt).trans ?_
  unfold Cert.Spec.segSum
  refine congrArg (Cert.Spec.zero + ·) ?_
  rw [sum_20x5000, Finset.sum_range]
  refine Finset.sum_congr rfl fun t _ => ?_
  have ht : t.val < cfg1.N := by rw [hN]; exact t.isLt
  rw [term, dif_pos ht]
  refine Finset.sum_congr rfl fun r _ => ?_
  rw [iblk0_apply V c ⟨t.val, ht⟩ r q, iblk1_apply V c ⟨t.val, ht⟩ r]

end Cert.KernelIdeal.Region1

end
-- ==== Proof.Region2.lean ====
import proofs.«103468_j83322365542770_2_alg».proof.Proof.Gen.KernelIdeal.Frame
import proofs.«103468_j83322365542770_2_alg».proof.Proof.Spec
import proofs.«103468_j83322365542770_2_alg».proof.Proof.LibDenseLayer
import proofs.«103468_j83322365542770_2_alg».proof.Proof.LibMatmulCols
import proofs.«103468_j83322365542770_2_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

section Pieces

variable {F : FTy → Type} [FloatOps F]

/-- The zero offsets of a whole-block access, as a constant function. -/
theorem zero_offsets : (![0, 0] : Fin 2 → Nat) = fun _ => 0 := funext fun a => by fin_cases a <;> rfl

/-- At a later point the body leaves, in the output's buffer holding `xo`, the payload over `xo`: its one covering
    store's value, whose loads read the whole buffers. -/
theorem piece_later (c : Dev nD) (i : grid2.Coords) (a1 : Memref sig .tc .vmem S5000x64 .f32) (h1 : a1.IsWhole)
    (a2 : Memref sig .tc .vmem S5000x1 .i32) (h2 : a2.IsWhole) (a3 : Memref sig .tc .vmem S100x64 .f32) (h3 : a3.IsWhole)
    (a4 : Memref sig .tc .vmem S100x64 .f32) (h4 : a4.IsWhole) (hc : ¬cond2_0 i)
    (x0 : Vec F S5000x64 .f32) (x1 : Vec F S5000x1 .i32) (x2 : Vec F S100x64 .f32) (xo : Vec F S100x64 .f32) :
    out2_B_3 c i a1 h1 a2 h2 a3 h3 a4 h4 hc x0 x1 x2 xo = k2_pay2 x0 x1 x2 xo := by
  unfold out2_B_3
  rw [View.read_writes_eq_canon _ _ _ (cover2_B_3 c i a1 h1 a2 h2 a3 h3 a4 h4 hc x0 x1 x2 xo)]
  unfold kernelRun2_B
  dsimp only
  rw [View.canon_unit_zero zero_offsets]
  simp only [View.readAt_eq_ld, h1.read_unread, h2.read_unread, h3.read_unread, h4.read_unread,
    View.ld_unit_zero (S := S5000x64) zero_offsets, View.ld_unit_zero (S := S5000x1) zero_offsets, View.ld_unit_zero (S := S100x64) zero_offsets]

/-- At the first point the body stores the zero block, reads it back, and leaves the payload over the zero block. -/
theorem piece_first (c : Dev nD) (i : grid2.Coords) (a1 : Memref sig .tc .vmem S5000x64 .f32) (h1 : a1.IsWhole)
    (a2 : Memref sig .tc .vmem S5000x1 .i32) (h2 : a2.IsWhole) (a3 : Memref sig .tc .vmem S100x64 .f32) (h3 : a3.IsWhole)
    (a4 : Memref sig .tc .vmem S100x64 .f32) (h4 : a4.IsWhole) (hc : cond2_0 i)
    (x0 : Vec F S5000x64 .f32) (x1 : Vec F S5000x1 .i32) (x2 : Vec F S100x64 .f32) :
    out2_A_3 c i a1 h1 a2 h2 a3 h3 a4 h4 hc x0 x1 x2 = k2_pay2 x0 x1 x2 (k2_pay1 (F := F)) := by
  unfold out2_A_3
  rw [View.read_writes_eq_canon _ _ _ (cover2_A_3 c i a1 h1 a2 h2 a3 h3 a4 h4 hc x0 x1 x2)]
  unfold kernelRun2_A
  dsimp only
  sl_unfold_words
  rw [View.canon_cons_unit_zero (S := S100x64) zero_offsets, View.readCov_unit_zero (S := S100x64) _ zero_offsets]
  simp only [View.readAt_eq_ld, h1.read_unread, h2.read_unread, h3.read_unread,
    View.ld_unit_zero (S := S5000x64) zero_offsets, View.ld_unit_zero (S := S5000x1) zero_offsets, View.ld_unit_zero (S := S100x64) zero_offsets]

end Pieces

/-! ## The body's arithmetic at an entry -/

section Payload

/-- The mask entry for a node whose graph word is `w`, at graph `g`: 1 when the word's signed value is `g`, else 0. -/
def hot (w : BitVec 32) (g : Fin 100) : EReal := if w.toInt = (g.val : Int) then 1 else 0

/-- The word of a graph number below 100, read signed, is that number. -/
theorem toInt_ofNat_graph (g : Fin 100) : (BitVec.ofNat 32 g.val).toInt = (g.val : Int) := by
  have hg := g.isLt
  rw [BitVec.toInt_eq_toNat_cond, BitVec.toNat_ofNat, Nat.mod_eq_of_lt (by omega)]
  split <;> omega

/-- A word is the word of graph `g` exactly when its signed value is `g`: reading signed is injective. -/
theorem word_eq_iff (w : BitVec 32) (g : Fin 100) : w = BitVec.ofNat 32 g.val ↔ w.toInt = (g.val : Int) :=
  ⟨fun h => h ▸ toInt_ofNat_graph g, fun h => BitVec.eq_of_toInt_eq (h.trans (toInt_ofNat_graph g).symm)⟩

/-- An equality test of two words, widened to 32 bits and converted as a signed integer, is 1 or 0. -/
theorem eqWord_real (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h
    have e : IntOp.cmpi .eq x x = 1#1 := by simp [IntOp.cmpi]
    have e1 : ((1#1 : BitVec 1).setWidth 32).toInt = 1 := by decide
    rw [e, e1, if_pos rfl]; simp
  · have e : IntOp.cmpi .eq x y = 0#1 := by
      show BitVec.ofBool (x == y) = 0#1
      rw [beq_eq_false_iff_ne.mpr h]; rfl
    have e0 : ((0#1 : BitVec 1).setWidth 32).toInt = 0 := by decide
    rw [e, e0, if_neg h]; simp

/-- The mask the body builds from a block's column of graph words, at (row r, graph g). -/
theorem mask_apply (x1 : IVec S5000x1 32) (r : Fin 5000) (g : Fin 100) :
    (sitofp .f32 (extui 32 (cmpi .eq (broadcastTo S5000x100 x1 broadcasts_S5000x1_S5000x100)
        (iota .tc S5000x100 32 [1] iota_S5000x100_d1_w32)) natLt_1_32) : FVec Ideal S5000x100 .f32) (ix2 r g)
      = hot (x1 (ix2 r 0)) g := by
  show FloatOps.sitofp (F := Ideal) .f32 ((IntOp.cmpi .eq (broadcastTo S5000x100 x1 broadcasts_S5000x1_S5000x100 (ix2 r g))
      (iota .tc S5000x100 32 [1] iota_S5000x100_d1_w32 (ix2 r g))).setWidth 32) = _
  rw [eqWord_real, broadcastTo_apply x1 broadcasts_S5000x1_S5000x100 (ix2 r g) (ix2 r 0)
    (fun a => by match a with | ⟨0, _⟩ => rfl | ⟨1, _⟩ => rfl), iota_single_apply]
  exact if_congr (word_eq_iff _ g) rfl rfl

/-- For a word in range, the masked sum over the graphs picks that word's graph. -/
theorem pick (w : BitVec 32) (hw : 0 ≤ w.toInt ∧ w.toInt < 100) (f : Fin 100 → EReal) :
    ∑ g' : Fin 100, hot w g' * f g' = f ⟨min w.toInt.toNat 99, by omega⟩ := by
  rw [Finset.sum_eq_single (⟨min w.toInt.toNat 99, by omega⟩ : Fin 100)]
  · rw [hot, if_pos (by show w.toInt = ((min w.toInt.toNat 99 : ℕ) : Int); omega), one_mul]
  · intro b _ hne
    rw [hot, if_neg (fun h => hne (Fin.ext (by show b.val = min w.toInt.toNat 99; omega))), zero_mul]
  · intro h; exact absurd (Finset.mem_univ _) h

/-! The two matrix products' index maps. -/

theorem d1_l0 (i : S5000x64.Idx) (k : dot_S5000x100_S100x64_S5000x64_1_0_0_1_n_n.contr.Idx) : (dot_S5000x100_S100x64_S5000x64_1_0_0_1_n_n.lhsIdx i k 0).val = (i 0).val := by
  unfold DotDims.lhsIdx
  rw [dif_neg (show ¬(0 : Fin S5000x100.rank) ∈ dot_S5000x100_S100x64_S5000x64_1_0_0_1_n_n.lhsBatch by decide), dif_pos (show (0 : Fin S5000x100.rank) ∈ dot_S5000x100_S100x64_S5000x64_1_0_0_1_n_n.lhsNonContracting by decide)]
  rfl
theorem d1_l1 (i : S5000x64.Idx) (k : dot_S5000x100_S100x64_S5000x64_1_0_0_1_n_n.contr.Idx) : (dot_S5000x100_S100x64_S5000x64_1_0_0_1_n_n.lhsIdx i k 1).val = (k ⟨0, by decide⟩).val :=
  dot_S5000x100_S100x64_S5000x64_1_0_0_1_n_n.lhsIdx_val_of_single rfl i k
theorem d1_r0 (i : S5000x64.Idx) (k : dot_S5000x100_S100x64_S5000x64_1_0_0_1_n_n.contr.Idx) : (dot_S5000x100_S100x64_S5000x64_1_0_0_1_n_n.rhsIdx i k 0).val = (k ⟨0, by decide⟩).val :=
  dot_S5000x100_S100x64_S5000x64_1_0_0_1_n_n.rhsIdx_val_of_single rfl i k
theorem d1_r1 (i : S5000x64.Idx) (k : dot_S5000x100_S100x64_S5000x64_1_0_0_1_n_n.contr.Idx) : (dot_S5000x100_S100x64_S5000x64_1_0_0_1_n_n.rhsIdx i k 1).val = (i 1).val := by
  unfold DotDims.rhsIdx
  rw [dif_neg (show ¬(1 : Fin S100x64.rank) ∈ dot_S5000x100_S100x64_S5000x64_1_0_0_1_n_n.rhsBatch by decide), dif_pos (show (1 : Fin S100x64.rank) ∈ dot_S5000x100_S100x64_S5000x64_1_0_0_1_n_n.rhsNonContracting by decide)]
  rfl
theorem d2_l0 (i : S100x64.Idx) (k : dot_S5000x100_S5000x64_S100x64_0_0_1_1_n_n.contr.Idx) : (dot_S5000x100_S5000x64_S100x64_0_0_1_1_n_n.lhsIdx i k 0).val = (k ⟨0, by decide⟩).val :=
  dot_S5000x100_S5000x64_S100x64_0_0_1_1_n_n.lhsIdx_val_of_single rfl i k
theorem d2_l1 (i : S100x64.Idx) (k : dot_S5000x100_S5000x64_S100x64_0_0_1_1_n_n.contr.Idx) : (dot_S5000x100_S5000x64_S100x64_0_0_1_1_n_n.lhsIdx i k 1).val = (i 0).val := by
  unfold DotDims.lhsIdx
  rw [dif_neg (show ¬(1 : Fin S5000x100.rank) ∈ dot_S5000x100_S5000x64_S100x64_0_0_1_1_n_n.lhsBatch by decide), dif_pos (show (1 : Fin S5000x100.rank) ∈ dot_S5000x100_S5000x64_S100x64_0_0_1_1_n_n.lhsNonContracting by decide)]
  rfl
theorem d2_r0 (i : S100x64.Idx) (k : dot_S5000x100_S5000x64_S100x64_0_0_1_1_n_n.contr.Idx) : (dot_S5000x100_S5000x64_S100x64_0_0_1_1_n_n.rhsIdx i k 0).val = (k ⟨0, by decide⟩).val :=
  dot_S5000x100_S5000x64_S100x64_0_0_1_1_n_n.rhsIdx_val_of_single rfl i k
theorem d2_r1 (i : S100x64.Idx) (k : dot_S5000x100_S5000x64_S100x64_0_0_1_1_n_n.contr.Idx) : (dot_S5000x100_S5000x64_S100x64_0_0_1_1_n_n.rhsIdx i k 1).val = (i 1).val := by
  unfold DotDims.rhsIdx
  rw [dif_neg (show ¬(1 : Fin S5000x64.rank) ∈ dot_S5000x100_S5000x64_S100x64_0_0_1_1_n_n.rhsBatch by decide), dif_pos (show (1 : Fin S5000x64.rank) ∈ dot_S5000x100_S5000x64_S100x64_0_0_1_1_n_n.rhsNonContracting by decide)]
  rfl

/-- The zero block at an entry. -/
theorem pay1_apply (g : Fin 100) (q : Fin 64) : (k2_pay1 (F := Ideal) : S100x64.Idx → EReal) (ix2 g q) = Cert.Spec.zero := rfl

/-- The deviation of a node's entry from its graph's row of `M`, squared, counted for graph `g` only: the summand of
    the per-graph sum. -/
def dev (w : BitVec 32) (a : EReal) (M : S100x64.Idx → EReal) (g : Fin 100) (q : Fin 64) : EReal :=
  if w.toInt = (g.val : Int)
    then (a - M (ix2 (⟨min w.toInt.toNat 99, by omega⟩ : Fin 100) q)) * (a - M (ix2 (⟨min w.toInt.toNat 99, by omega⟩ : Fin 100) q))
    else 0

/-- The accumulating payload at an entry: the running block plus, over the block's 5000 rows, the masked squared
    deviation, the graph's row of `mu` itself a masked sum over the graphs. -/
theorem pay2_apply (x0 : FVec Ideal S5000x64 .f32) (x1 : IVec S5000x1 32) (mu acc : FVec Ideal S100x64 .f32)
    (g : Fin 100) (q : Fin 64) :
    (k2_pay2 (F := Ideal) x0 x1 mu acc : S100x64.Idx → EReal) (ix2 g q)
      = acc (ix2 g q) + ∑ r : Fin 5000, hot (x1 (ix2 r 0)) g *
          ((x0 (ix2 r q) - ∑ g' : Fin 100, hot (x1 (ix2 r 0)) g' * mu (ix2 g' q))
            * (x0 (ix2 r q) - ∑ g' : Fin 100, hot (x1 (ix2 r 0)) g' * mu (ix2 g' q))) := by
  unfold k2_pay2
  dsimp only
  simp only [shapeCast_self]
  refine (addf_apply _ _ _).trans (congrArg (acc (ix2 g q) + ·) ?_)
  refine (Cert.MatmulCols.matmul_cols_cols dot_S5000x100_S5000x64_S100x64_0_0_1_1_n_n rfl rfl d2_l0 d2_l1 d2_r0 d2_r1 (some .fp32) _ _ g q).trans ?_
  refine Finset.sum_congr rfl fun r _ => ?_
  rw [mask_apply]
  refine congrArg (hot (x1 (ix2 r 0)) g * ·) ?_
  refine (mulf_apply _ _ _).trans ?_
  have e : (subf x0 (FloatOps.matmul dot_S5000x100_S100x64_S5000x64_1_0_0_1_n_n (some .fp32)
      (sitofp .f32 (extui 32 (cmpi .eq (broadcastTo S5000x100 x1 broadcasts_S5000x1_S5000x100)
        (iota .tc S5000x100 32 [1] iota_S5000x100_d1_w32)) natLt_1_32) : FVec Ideal S5000x100 .f32) mu
      (constant S5000x64 .f32 0x00000000#32)) : FVec Ideal S5000x64 .f32) (ix2 r q)
      = x0 (ix2 r q) - ∑ g' : Fin 100, hot (x1 (ix2 r 0)) g' * mu (ix2 g' q) := by
    refine (subf_apply _ _ _).trans (congrArg (x0 (ix2 r q) - ·) ?_)
    refine (Cert.DenseLayer.matmul_rows_cols dot_S5000x100_S100x64_S5000x64_1_0_0_1_n_n rfl rfl d1_l0 d1_l1 d1_r0 d1_r1 (some .fp32) _ _ r q).trans ?_
    exact Finset.sum_congr rfl fun g' _ => congrArg (· * mu (ix2 g' q)) (mask_apply x1 r g')
  exact congrArg₂ (· * ·) e e

/-- With every graph word of the block in range, the payload adds to the running block the block's masked squared
    deviations from the graph rows of `mu`. -/
theorem pay2_entry (x0 : FVec Ideal S5000x64 .f32) (x1 : IVec S5000x1 32) (mu acc : FVec Ideal S100x64 .f32)
    (hx : ∀ r : Fin 5000, 0 ≤ (x1 (ix2 r 0)).toInt ∧ (x1 (ix2 r 0)).toInt < 100) (g : Fin 100) (q : Fin 64) :
    (k2_pay2 (F := Ideal) x0 x1 mu acc : S100x64.Idx → EReal) (ix2 g q)
      = acc (ix2 g q) + ∑ r : Fin 5000, dev (x1 (ix2 r 0)) (x0 (ix2 r q)) mu g q := by
  rw [pay2_apply]
  refine congrArg (acc (ix2 g q) + ·) (Finset.sum_congr rfl fun r _ => ?_)
  rw [pick (x1 (ix2 r 0)) (hx r) (fun g' => mu (ix2 g' q))]
  unfold hot dev
  split
  · rw [one_mul]
  · rw [zero_mul]

end Payload

/-! ## The blocks the windows stage -/

section Blocks

variable (V : (c : Dev nD) → (b : Ref sig .tc) → Buf (Elt Ideal) ((c : Thread nD τ).loc b)) (c : Dev nD)

/-- The node windows' index maps send point `t` to block row `t`, column 0; the per-graph windows stay at block (0, 0):
    decided over the 20 points. -/
theorem idx_0 : ∀ t : Fin cfg2.N, win2_0.index t 0 = t.val ∧ win2_0.index t 1 = 0 :=
  (by decide +kernel : ∀ t : Fin grid2.N, win2_0.index t 0 = t.val ∧ win2_0.index t 1 = 0)
theorem idx_1 : ∀ t : Fin cfg2.N, win2_1.index t 0 = t.val ∧ win2_1.index t 1 = 0 :=
  (by decide +kernel : ∀ t : Fin grid2.N, win2_1.index t 0 = t.val ∧ win2_1.index t 1 = 0)
theorem idx_2 : ∀ t : Fin cfg2.N, win2_2.index t 0 = 0 ∧ win2_2.index t 1 = 0 :=
  (by decide +kernel : ∀ t : Fin grid2.N, win2_2.index t 0 = 0 ∧ win2_2.index t 1 = 0)

/-- Row `r` of the feature block at point `t` is node `5000 t + r`: block index times block size plus the row inside. -/
theorem blk0_entry (t : Fin cfg2.N) (r : Fin 5000) (q : Fin 64) :
    (iblk2 V c 0 t : S5000x64.Idx → EReal) (ix2 r q)
      = (V c main_v19 : S100000x64.Idx → EReal) (ix2 (⟨5000 * t.val + r.val, by
          have := t.isLt; have hN : cfg2.N = 20 := N_2; have := r.isLt; omega⟩ : Fin 100000) q) := by
  have hi := idx_0 t
  unfold iblk2
  rw [View.read_apply]
  show V c main_v19 _ = V c main_v19 _
  refine congrArg _ (funext fun a => Fin.ext ?_)
  match a with
  | ⟨0, _⟩ => show win2_0.index t 0 * 5000 + 1 * r.val = 5000 * t.val + r.val; rw [hi.1]; omega
  | ⟨1, _⟩ => show win2_0.index t 1 * 64 + 1 * q.val = q.val; rw [hi.2]; omega

/-- Row `r` of the graph-word block at point `t` is node `5000 t + r`. -/
theorem blk1_entry (t : Fin cfg2.N) (r : Fin 5000) :
    (iblk2 V c 1 t : S5000x1.Idx → BitVec 32) (ix2 r 0)
      = (V c main_v20 : S100000x1.Idx → BitVec 32) (ix2 (⟨5000 * t.val + r.val, by
          have := t.isLt; have hN : cfg2.N = 20 := N_2; have := r.isLt; omega⟩ : Fin 100000) 0) := by
  have hi := idx_1 t
  unfold iblk2
  rw [View.read_apply]
  show V c main_v20 _ = V c main_v20 _
  refine congrArg _ (funext fun a => Fin.ext ?_)
  match a with
  | ⟨0, _⟩ => show win2_1.index t 0 * 5000 + 1 * r.val = 5000 * t.val + r.val; rw [hi.1]; omega
  | ⟨1, _⟩ => show win2_1.index t 1 * 1 + 1 * 0 = 0; rw [hi.2]

/-- The per-graph rows are staged whole at every point. -/
theorem blk2_eq (t : Fin cfg2.N) : (iblk2 V c 2 t : S100x64.Idx → EReal) = (V c main_v25 : S100x64.Idx → EReal) := by
  have hi := idx_2 t
  funext j
  unfold iblk2
  rw [View.read_apply]
  show V c main_v25 _ = V c main_v25 j
  refine congrArg _ (funext fun a => Fin.ext ?_)
  match a with
  | ⟨0, _⟩ => show win2_2.index t 0 * 100 + 1 * (j 0).val = (j 0).val; rw [hi.1]; omega
  | ⟨1, _⟩ => show win2_2.index t 1 * 64 + 1 * (j 1).val = (j 1).val; rw [hi.2]; omega

/-! ## The running block after each point -/

/-- Node `n`'s contribution to entry (g, q): its squared deviation from its graph's row, if its graph is `g`. -/
def H (g : Fin 100) (q : Fin 64) (n : Fin 100000) : EReal :=
  dev ((V c main_v20 : S100000x1.Idx → BitVec 32) (ix2 n 0)) ((V c main_v19 : S100000x64.Idx → EReal) (ix2 n q))
    (V c main_v25 : S100x64.Idx → EReal) g q

/-- The contributions of the 5000 nodes of block `t`. -/
def blockSum (g : Fin 100) (q : Fin 64) (t : ℕ) : EReal :=
  if ht : t < 20 then ∑ r : Fin 5000, H V c g q ⟨5000 * t + r.val, by have := r.isLt; omega⟩ else 0

/-- At point `t` the payload adds block `t`'s contributions to the running block. -/
theorem point_entry (hb : Cert.Spec.InRange (fun n => (V c main_v20 : S100000x1.Idx → BitVec 32) (ix2 n 0)))
    (g : Fin 100) (q : Fin 64) (t : Fin cfg2.N) (acc : FVec Ideal S100x64 .f32) :
    (k2_pay2 (F := Ideal) (iblk2 V c 0 t) (iblk2 V c 1 t) (iblk2 V c 2 t) acc : S100x64.Idx → EReal) (ix2 g q)
      = acc (ix2 g q) + blockSum V c g q t.val := by
  have hN : t.val < 20 := lt_of_lt_of_eq t.isLt (show cfg2.N = 20 from N_2)
  refine (pay2_entry (iblk2 V c 0 t) (iblk2 V c 1 t) (iblk2 V c 2 t) acc (fun r => ?_) g q).trans ?_
  · rw [blk1_entry]; exact hb _
  · refine congrArg (acc (ix2 g q) + ·) ?_
    unfold blockSum
    rw [dif_pos hN]
    refine Finset.sum_congr rfl fun r _ => ?_
    rw [blk0_entry, blk1_entry, blk2_eq]
    rfl

/-- The first point's contents: the payload over the zero block. -/
theorem outsAt_first (t : Fin cfg2.N) (h0 : t.val % 20 = 0) :
    outsAt2 V c t.val t.isLt = k2_pay2 (F := Ideal) (iblk2 V c 0 t) (iblk2 V c 1 t) (iblk2 V c 2 t) (k2_pay1 (F := Ideal)) :=
  (outsAt2_A V c t h0).trans (piece_first (F := Ideal) c (grid2.coords t) (ms2_0 t) (hs2_0 t) (ms2_1 t) (hs2_1 t) (ms2_2 t) (hs2_2 t)
    (ms2_3 t) (hs2_3 t) ((hcond2_0 t).mpr h0) (iblk2 V c 0 t) (iblk2 V c 1 t) (iblk2 V c 2 t))

/-- A later point's contents: the payload over what the point before left. -/
theorem outsAt_later (t : Fin cfg2.N) (h0 : ¬t.val % 20 = 0) :
    outsAt2 V c t.val t.isLt = k2_pay2 (F := Ideal) (iblk2 V c 0 t) (iblk2 V c 1 t) (iblk2 V c 2 t)
      (outsAt2 V c (t.val - 1) (Nat.lt_of_le_of_lt (Nat.sub_le _ _) t.isLt)) :=
  (outsAt2_B V c t h0).trans (piece_later (F := Ideal) c (grid2.coords t) (ms2_0 t) (hs2_0 t) (ms2_1 t) (hs2_1 t) (ms2_2 t) (hs2_2 t)
    (ms2_3 t) (hs2_3 t) (fun h => h0 ((hcond2_0 t).mp h)) (iblk2 V c 0 t) (iblk2 V c 1 t) (iblk2 V c 2 t)
    (outsAt2 V c (t.val - 1) (Nat.lt_of_le_of_lt (Nat.sub_le _ _) t.isLt)))

/-- After point `n` the output's buffer holds, at (g, q), the zero plus the contributions of blocks 0 … n: by induction on
    the point (sums of extended reals re-associate freely). -/
theorem outsAt_entry (hb : Cert.Spec.InRange (fun n => (V c main_v20 : S100000x1.Idx → BitVec 32) (ix2 n 0)))
    (g : Fin 100) (q : Fin 64) : ∀ (n : ℕ) (h : n < cfg2.N),
    (outsAt2 V c n h : S100x64.Idx → EReal) (ix2 g q)
      = Cert.Spec.zero + ∑ t ∈ Finset.range (n + 1), blockSum V c g q t
  | 0, h => by
    refine (congrFun (outsAt_first V c ⟨0, h⟩ rfl) (ix2 g q)).trans ?_
    refine (point_entry V c hb g q ⟨0, h⟩ (k2_pay1 (F := Ideal))).trans ?_
    rw [pay1_apply, Finset.sum_range_one]
  | n + 1, h => by
    have hN : cfg2.N = 20 := N_2
    have hB : ¬(⟨n + 1, h⟩ : Fin cfg2.N).val % 20 = 0 := by dsimp only; omega
    refine (congrFun (outsAt_later V c ⟨n + 1, h⟩ hB) (ix2 g q)).trans ?_
    refine (point_entry V c hb g q ⟨n + 1, h⟩ _).trans ?_
    show (outsAt2 V c n _ : S100x64.Idx → EReal) (ix2 g q) + blockSum V c g q (n + 1) = _
    rw [outsAt_entry hb g q n, Finset.sum_range_succ _ (n + 1), add_assoc]

/-! ## The one write-back -/

/-- The last point. -/
abbrev t19 : Fin cfg2.N := ⟨19, by rw [show cfg2.N = 20 from N_2]; decide⟩

/-- What the output's buffer holds after the last point. -/
abbrev result : Buf (Elt Ideal) ((c : Thread nD τ).loc main_v26) := outsAt2 V c 19 t19.isLt

/-- The buffer goes back to its array once, at point 19, and the block it goes to, block (0, 0) of a [100, 64]
    array cut in [100, 64] blocks, is the array itself. -/
theorem writeback_eq (t : Fin cfg2.N) (hf : (cfg2.win 3).flush t = true) :
    (dat2 V c).flushed 3 t = ((cfg2.win 3).blk t).view.read (Elt Ideal) (result V c) := by
  have hN : cfg2.N = 20 := N_2
  have h19 : t.val = 19 := by have := (flush2_3 t).mp hf; have := t.isLt; omega
  obtain rfl : t = t19 := Fin.ext h19
  show (cfg2.win 3).cut (grid2.coords t19) ((dat2 V c).after 3 t19) = _
  rw [after2_3]
  have hoff : (fun a => win2_3.index t19 a * main_v26.ty.shape.size a) = fun _ => 0 := funext fun a => by fin_cases a <;> decide
  exact (Memref.read_access_unit_zero (Elt Ideal) main_v26 hoff (fun a => by rw [congrFun hoff a]; simp) (result V c)).symm

/-- That one block covers the array, so the array ends holding the last point's contents. -/
theorem array_eq : (dat2 V c).arrAt 3 cfg2.N = result V c :=
  (dat2 V c).arrAt_eq_of_cover 3 (result V c) (writeback_eq V c) fun i =>
    ⟨t19, (flush2_3 t19).mpr rfl, by
      show i ∈ ((View.whole main_v26).slice (win2_3.rect t19)).set
      rw [View.set_slice_whole, Rect.mem_set_unit]
      intro a
      have h0 : (i 0 : Nat) < 100 := (i 0).isLt
      have h1 : (i 1 : Nat) < 64 := (i 1).isLt
      match a with
      | ⟨0, _⟩ => show win2_3.index t19 0 * win2_3.size 0 ≤ (i 0 : Nat) ∧ (i 0 : Nat) < win2_3.index t19 0 * win2_3.size 0 + win2_3.xsize (grid2.coords t19) 0
                  rw [show win2_3.index t19 0 * win2_3.size 0 = 0 from by decide +kernel, show win2_3.xsize (grid2.coords t19) 0 = 100 from by decide +kernel]; omega
      | ⟨1, _⟩ => show win2_3.index t19 1 * win2_3.size 1 ≤ (i 1 : Nat) ∧ (i 1 : Nat) < win2_3.index t19 1 * win2_3.size 1 + win2_3.xsize (grid2.coords t19) 1
                  rw [show win2_3.index t19 1 * win2_3.size 1 = 0 from by decide +kernel, show win2_3.xsize (grid2.coords t19) 1 = 64 from by decide +kernel]; omega⟩

/-- The 20 blocks' contributions are all 100000 nodes' contributions: node `n` is row `n mod 5000` of block `n / 5000`. -/
theorem blocks_sum (g : Fin 100) (q : Fin 64) :
    ∑ t ∈ Finset.range 20, blockSum V c g q t = ∑ n : Fin 100000, H V c g q n :=
  calc ∑ t ∈ Finset.range 20, blockSum V c g q t
      = ∑ t : Fin 20, blockSum V c g q t.val := Finset.sum_range _
    _ = ∑ t : Fin 20, ∑ p : Fin 5000, H V c g q ⟨5000 * t.val + p.val, Cert.BlockedSum.block_lt t p⟩ :=
        Finset.sum_congr rfl fun t _ => by unfold blockSum; rw [dif_pos t.isLt]
    _ = ∑ n : Fin 100000, H V c g q n := (Cert.BlockedSum.sum_by_blocks (N := 20) (R := 5000) (H V c g q)).symm

end Blocks

/-- What the third call leaves in its result array, entry by entry: the per-graph sums of squared deviations. -/
theorem value (V : (c : Dev nD) → (b : Ref sig .tc) → Buf (Elt Ideal) ((c : Thread nD τ).loc b)) (c : Dev nD)
    (hb : Cert.Spec.InRange (fun n => (V c main_v20 : S100000x1.Idx → BitVec 32) (ix2 n 0))) (g : Fin 100) (q : Fin 64) :
    ((dat2 (F := Ideal) V c).arrAt 3 cfg2.N : S100x64.Idx → EReal) (ix2 g q)
      = Cert.Spec.varSum (fun n => (V c main_v20 : S100000x1.Idx → BitVec 32) (ix2 n 0)) (V c main_v19) (V c main_v25) g q := by
  refine (congrFun (array_eq V c) (ix2 g q)).trans ?_
  refine (outsAt_entry V c hb g q 19 t19.isLt).trans ?_
  unfold Cert.Spec.varSum
  refine congrArg (Cert.Spec.zero + ·) ?_
  exact (blocks_sum V c g q).trans (Finset.sum_congr rfl fun n _ => rfl)

end Cert.KernelIdeal.Region2

end
-- ==== Proof.Region3.lean ====
import proofs.«103468_j83322365542770_2_alg».proof.Proof.Gen.KernelIdeal.Frame
import proofs.«103468_j83322365542770_2_alg».proof.Proof.Spec
import proofs.«103468_j83322365542770_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

/-!
  The fourth call's result, entry by entry. Its grid has 20 points; point t handles node rows 5000 t .. 5000 t + 4999,
  with the two per-graph tables ([100, 64]) and the scale and shift rows ([1, 64]) whole at every point. The body builds
  the one-hot matrix of its 5000 node-to-graph words against the graph numbers 0..99, multiplies it into each table —
  which, for a word that IS one of those numbers, picks that graph's row, every other term of the sum being 0 times an
  extended real —, and finishes elementwise: (a - m) / (s + ε) · γ + β. Read block by block through the windows, that is
  the normalised output of the specification at row 5000 t + p; the 20 blocks cover the 100000 rows.
-/

/-- Two's complement: a 32-bit word whose signed value lies in 0..99 is the word of that number, and of no other
    number below 100. -/
theorem word_eq_ofNat_iff (x : BitVec 32) (h0 : 0 ≤ x.toInt) (h1 : x.toInt < 100) (g : Fin 100) :
    x = BitVec.ofNat 32 g.val ↔ g.val = x.toInt.toNat := by
  have hx := x.isLt
  have hc := BitVec.toInt_eq_toNat_cond x
  have hg := g.isLt
  constructor
  · intro h
    have h2 := congrArg BitVec.toNat h
    rw [BitVec.toNat_ofNat] at h2
    split at hc <;> omega
  · intro h
    apply BitVec.eq_of_toNat_eq
    rw [BitVec.toNat_ofNat]
    split at hc <;> omega

/-- The comparison of two words for equality, widened to 32 bits and read as a signed integer, is the real number 1
    when the words are equal and 0 when they are not. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h, IntOp.cmpi_eq.mpr h]
    norm_num
  · rw [if_neg h]
    have : IntOp.cmpi .eq a b = 0#1 := by
      have := (IntOp.cmpi_eq (x := a) (y := b)).not.mpr h
      revert this; generalize IntOp.cmpi .eq a b = c; revert c; decide
    rw [this]
    norm_num

/-! ## The matrix unit's dimension record: the left index takes the output row and the contraction position, the
right index the contraction position and the output column -/

theorem onehotDims_l0 (i : S5000x64.Idx) (k : dot_S5000x100_S100x64_S5000x64_1_0_0_1_n_n.contr.Idx) :
    (dot_S5000x100_S100x64_S5000x64_1_0_0_1_n_n.lhsIdx i k 0).val = (i 0).val := by
  unfold DotDims.lhsIdx
  rw [dif_neg (show ¬(0 : Fin S5000x100.rank) ∈ dot_S5000x100_S100x64_S5000x64_1_0_0_1_n_n.lhsBatch by decide), dif_pos (show (0 : Fin S5000x100.rank) ∈ dot_S5000x100_S100x64_S5000x64_1_0_0_1_n_n.lhsNonContracting by decide)]
  rfl
theorem onehotDims_l1 (i : S5000x64.Idx) (k : dot_S5000x100_S100x64_S5000x64_1_0_0_1_n_n.contr.Idx) :
    (dot_S5000x100_S100x64_S5000x64_1_0_0_1_n_n.lhsIdx i k 1).val = (k ⟨0, by decide⟩).val :=
  dot_S5000x100_S100x64_S5000x64_1_0_0_1_n_n.lhsIdx_val_of_single rfl i k
theorem onehotDims_r0 (i : S5000x64.Idx) (k : dot_S5000x100_S100x64_S5000x64_1_0_0_1_n_n.contr.Idx) :
    (dot_S5000x100_S100x64_S5000x64_1_0_0_1_n_n.rhsIdx i k 0).val = (k ⟨0, by decide⟩).val :=
  dot_S5000x100_S100x64_S5000x64_1_0_0_1_n_n.rhsIdx_val_of_single rfl i k
theorem onehotDims_r1 (i : S5000x64.Idx) (k : dot_S5000x100_S100x64_S5000x64_1_0_0_1_n_n.contr.Idx) :
    (dot_S5000x100_S100x64_S5000x64_1_0_0_1_n_n.rhsIdx i k 1).val = (i 1).val := by
  unfold DotDims.rhsIdx
  rw [dif_neg (show ¬(1 : Fin S100x64.rank) ∈ dot_S5000x100_S100x64_S5000x64_1_0_0_1_n_n.rhsBatch by decide), dif_pos (show (1 : Fin S100x64.rank) ∈ dot_S5000x100_S100x64_S5000x64_1_0_0_1_n_n.rhsNonContracting by decide)]
  rfl

/-- The one-hot matrix at (r, g): 1 when the word at row r is the word of g, 0 otherwise. The column of words is
    repeated along the second axis, compared with the second coordinate, and the comparison's bit converted. -/
theorem onehot_apply (x1 : S5000x1.Idx → BitVec 32) (r : Fin 5000) (g : Fin 100) :
    (sitofp .f32 (extui 32 (cmpi .eq (broadcastTo S5000x100 x1 broadcasts_S5000x1_S5000x100) (iota .tc S5000x100 32 [1] iota_S5000x100_d1_w32)) natLt_1_32) : FVec Ideal S5000x100 .f32) (ix2 r g)
      = if x1 (ix2 r 0) = BitVec.ofNat 32 g.val then (1 : EReal) else 0 := by
  have eb : broadcastTo S5000x100 x1 broadcasts_S5000x1_S5000x100 (ix2 r g) = x1 (ix2 r 0) :=
    broadcastTo_apply x1 _ (ix2 r g) (ix2 r 0) (fun a => by match a with | ⟨0, _⟩ => rfl | ⟨1, _⟩ => rfl)
  have ei : iota .tc S5000x100 32 [1] iota_S5000x100_d1_w32 (ix2 r g) = BitVec.ofNat 32 g.val :=
    iota_single_apply .tc S5000x100 32 1 _ (ix2 r g)
  show FloatOps.sitofp (F := Ideal) .f32 ((IntOp.cmpi .eq (broadcastTo S5000x100 x1 broadcasts_S5000x1_S5000x100 (ix2 r g)) (iota .tc S5000x100 32 [1] iota_S5000x100_d1_w32 (ix2 r g))).setWidth 32) = _
  rw [eb, ei, onehot_word]

/-- The one-hot matrix times a table, at (r, q): the table's row numbered by the word at row r. Every other term of
    the sum is 0 times an extended real, which is 0 whatever that extended real is. -/
theorem onehot_matmul (x1 : S5000x1.Idx → BitVec 32) (T : FVec Ideal S100x64 .f32) (r : Fin 5000) (q : Fin 64) (g : Fin 100)
    (h0 : 0 ≤ (x1 (ix2 r 0)).toInt) (h1 : (x1 (ix2 r 0)).toInt < 100) (hg : g.val = (x1 (ix2 r 0)).toInt.toNat) :
    FloatOps.matmul dot_S5000x100_S100x64_S5000x64_1_0_0_1_n_n (some .fp32)
        (sitofp .f32 (extui 32 (cmpi .eq (broadcastTo S5000x100 x1 broadcasts_S5000x1_S5000x100) (iota .tc S5000x100 32 [1] iota_S5000x100_d1_w32)) natLt_1_32) : FVec Ideal S5000x100 .f32)
        T (constant S5000x64 .f32 0x00000000#32) (ix2 r q)
      = T (ix2 g q) := by
  rw [Cert.DenseLayer.matmul_rows_cols (A := 5000) (K := 100) (B := 64) dot_S5000x100_S100x64_S5000x64_1_0_0_1_n_n rfl rfl onehotDims_l0 onehotDims_l1 onehotDims_r0 onehotDims_r1]
  rw [Finset.sum_eq_single g]
  · rw [onehot_apply, if_pos ((word_eq_ofNat_iff _ h0 h1 g).mpr hg), one_mul]
  · intro g' _ hg'
    rw [onehot_apply, if_neg (fun e => hg' (Fin.ext (((word_eq_ofNat_iff _ h0 h1 g').mp e).trans hg.symm))), zero_mul]
  · intro h; exact absurd (Finset.mem_univ _) h

/-- THE BODY'S RESULT AT (r, q), for a row whose word is the graph number g: the two one-hot products pick row g of
    each table, and the rest is elementwise: the deviation from the first table's entry, divided by the second
    table's entry plus the guard, times the scale, plus the shift. -/
theorem body_at (x0 : Vec Ideal S5000x64 .f32) (x1 : Vec Ideal S5000x1 .i32) (mu sg : Vec Ideal S100x64 .f32)
    (gm bt : Vec Ideal S1x64 .f32) (r : Fin 5000) (q : Fin 64) (g : Fin 100)
    (h0 : 0 ≤ ((x1 : S5000x1.Idx → BitVec 32) (ix2 r 0)).toInt) (h1 : ((x1 : S5000x1.Idx → BitVec 32) (ix2 r 0)).toInt < 100)
    (hg : g.val = ((x1 : S5000x1.Idx → BitVec 32) (ix2 r 0)).toInt.toNat) :
    (k3_pay1 x0 x1 mu sg gm bt : S5000x64.Idx → EReal) (ix2 r q)
      = Ideal.div ((x0 : S5000x64.Idx → EReal) (ix2 r q) - (mu : S100x64.Idx → EReal) (ix2 g q))
          ((sg : S100x64.Idx → EReal) (ix2 g q) + Cert.Spec.eps)
          * (gm : S1x64.Idx → EReal) (ix2 0 q) + (bt : S1x64.Idx → EReal) (ix2 0 q) := by
  unfold k3_pay1
  simp only [shapeCast_self, Idealize.ShloMosaic.matmul]
  rw [addf_apply, mulf_apply, divf_apply, subf_apply, addf_apply, broadcast_apply]
  rw [onehot_matmul x1 mu r q g h0 h1 hg, onehot_matmul x1 sg r q g h0 h1 hg]
  rw [broadcastTo_apply gm broadcasts_S1x64_S5000x64 (ix2 r q) (ix2 0 q) (fun a => by match a with | ⟨0, _⟩ => rfl | ⟨1, _⟩ => rfl)]
  rw [broadcastTo_apply bt broadcasts_S1x64_S5000x64 (ix2 r q) (ix2 0 q) (fun a => by match a with | ⟨0, _⟩ => rfl | ⟨1, _⟩ => rfl)]
  rfl

/-! ## From blocks to the array -/

theorem origin_eq : (![0, 0] : Fin 2 → Nat) = fun _ => 0 := funext fun a => by fin_cases a <;> rfl

/-- The whole result array, entry by entry: the normalised output at (first coordinate, second coordinate). -/
def normOut (V : (c : Dev nD) → (b : Ref sig .tc) → Buf (Elt Ideal) ((c : Thread nD τ).loc b)) (c : Dev nD) : S100000x64.Idx → EReal :=
  fun i => Cert.Spec.normAt (fun n => (V c main_v20 : S100000x1.Idx → BitVec 32) (ix2 n 0)) (V c main_v19) (V c main_v25) (V c main_v33)
          (fun q => (V c main_v34 : S1x64.Idx → EReal) (ix2 0 q)) (fun q => (V c main_v35 : S1x64.Idx → EReal) (ix2 0 q)) (i 0) (i 1)

/-- The printed index maps, decided over the 20 points: the node features, the node-to-graph column and the result
    move with the point along the first axis; the two tables, the scale and the shift stay at block (0, 0). -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- WHAT POINT t WRITES BACK is block t of the normalised output: rows 5000 t .. 5000 t + 4999. -/
theorem point_writes_block (V : (c : Dev nD) → (b : Ref sig .tc) → Buf (Elt Ideal) ((c : Thread nD τ).loc b)) (c : Dev nD)
    (hb : Cert.Spec.InRange (fun n => (V c main_v20 : S100000x1.Idx → BitVec 32) (ix2 n 0))) (t : Fin cfg3.N) :
    (dat3 (F := Ideal) V c).flushed 6 t = ((cfg3.win 6).blk t).view.read (Elt Ideal) (normOut V c) := by
  show (cfg3.win 6).cut (grid3.coords t) ((dat3 (F := Ideal) V c).after 6 t) = _
  rw [after3_6]
  unfold out3_6
  rw [View.canon_unit_zero origin_eq]
  simp only [View.ld_unit_zero (S := S5000x64) origin_eq, View.ld_unit_zero (S := S5000x1) origin_eq, View.ld_unit_zero (S := S100x64) origin_eq, View.ld_unit_zero (S := S1x64) origin_eq]
  funext j
  obtain ⟨p, q, rfl⟩ : ∃ (p : Fin 5000) (q : Fin 64), j = ix2 p q := ⟨j 0, j 1, eq_ix2 j⟩
  obtain ⟨e00, e01, e10, e11, e20, e21, e30, e31, e40, e41, e50, e51, e60, e61⟩ := block_indices t
  have ht : t.val < 20 := lt_of_lt_of_eq t.isLt N_3
  have hp := p.isLt
  -- the node this entry of the block is: row 5000 t + p
  have hn : 5000 * t.val + p.val < 100000 := by omega
  have b0 : (iblk3 V c 0 t : S5000x64.Idx → EReal) (ix2 p q) = (V c main_v19 : S100000x64.Idx → EReal) (ix2 ⟨5000 * t.val + p.val, hn⟩ q) := by
    show (V c main_v19 : S100000x64.Idx → EReal) (((cfg3.win 0).blk t).view.emb (ix2 p q)) = _
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 64 + 1 * q.val = q.val; omega
  have b1 : (iblk3 V c 1 t : S5000x1.Idx → BitVec 32) (ix2 p 0) = (V c main_v20 : S100000x1.Idx → BitVec 32) (ix2 ⟨5000 * t.val + p.val, hn⟩ 0) := by
    show (V c main_v20 : S100000x1.Idx → BitVec 32) (((cfg3.win 1).blk t).view.emb (ix2 p 0)) = _
    refine congrArg _ (funext fun a => Fin.ext ?_)
    match a with
    | ⟨0, _⟩ => show win3_1.index t (0 : Fin 2) * 5000 + 1 * p.val = 5000 * t.val + p.val; omega
    | ⟨1, _⟩ => show win3_1.index t (1 : Fin 2) * 1 + 1 * 0 = 0; omega
  have b2 : ∀ g : Fin 100, (iblk3 V c 2 t : S100x64.Idx → EReal) (ix2 g q) = (V c main_v25 : S100x64.Idx → EReal) (ix2 g q) := fun g => by
    show (V c main_v25 : S100x64.Idx → EReal) (((cfg3.win 2).blk t).view.emb (ix2 g q)) = _
    refine congrArg _ (funext fun a => Fin.ext ?_)
    match a with
    | ⟨0, _⟩ => show win3_2.index t (0 : Fin 2) * 100 + 1 * g.val = g.val; omega
    | ⟨1, _⟩ => show win3_2.index t (1 : Fin 2) * 64 + 1 * q.val = q.val; omega
  have b3 : ∀ g : Fin 100, (iblk3 V c 3 t : S100x64.Idx → EReal) (ix2 g q) = (V c main_v33 : S100x64.Idx → EReal) (ix2 g q) := fun g => by
    show (V c main_v33 : S100x64.Idx → EReal) (((cfg3.win 3).blk t).view.emb (ix2 g q)) = _
    refine congrArg _ (funext fun a => Fin.ext ?_)
    match a with
    | ⟨0, _⟩ => show win3_3.index t (0 : Fin 2) * 100 + 1 * g.val = g.val; omega
    | ⟨1, _⟩ => show win3_3.index t (1 : Fin 2) * 64 + 1 * q.val = q.val; omega
  have b4 : (iblk3 V c 4 t : S1x64.Idx → EReal) (ix2 0 q) = (V c main_v34 : S1x64.Idx → EReal) (ix2 0 q) := by
    show (V c main_v34 : S1x64.Idx → EReal) (((cfg3.win 4).blk t).view.emb (ix2 0 q)) = _
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega
  have b5 : (iblk3 V c 5 t : S1x64.Idx → EReal) (ix2 0 q) = (V c main_v35 : S1x64.Idx → EReal) (ix2 0 q) := by
    show (V c main_v35 : S1x64.Idx → EReal) (((cfg3.win 5).blk t).view.emb (ix2 0 q)) = _
    refine congrArg _ (funext fun a => Fin.ext ?_)
    match a with
    | ⟨0, _⟩ => show win3_5.index t (0 : Fin 2) * 1 + 1 * 0 = 0; omega
    | ⟨1, _⟩ => show win3_5.index t (1 : Fin 2) * 64 + 1 * q.val = q.val; omega
  have e6 : ((cfg3.win 6).blk t).view.emb (ix2 p q) = (ix2 ⟨5000 * t.val + p.val, hn⟩ q : S100000x64.Idx) := by
    refine funext fun a => Fin.ext ?_
    match a with
    | ⟨0, _⟩ => show win3_6.index t (0 : Fin 2) * 5000 + 1 * p.val = 5000 * t.val + p.val; omega
    | ⟨1, _⟩ => show win3_6.index t (1 : Fin 2) * 64 + 1 * q.val = q.val; omega
  -- the node's word is one of the 100 graph numbers
  have r0 : 0 ≤ ((V c main_v20 : S100000x1.Idx → BitVec 32) (ix2 ⟨5000 * t.val + p.val, hn⟩ 0)).toInt := (hb ⟨5000 * t.val + p.val, hn⟩).1
  have r1 : ((V c main_v20 : S100000x1.Idx → BitVec 32) (ix2 ⟨5000 * t.val + p.val, hn⟩ 0)).toInt < 100 := (hb ⟨5000 * t.val + p.val, hn⟩).2
  have hg : (Cert.Spec.graphOf (fun n => (V c main_v20 : S100000x1.Idx → BitVec 32) (ix2 n 0)) ⟨5000 * t.val + p.val, hn⟩).val
      = ((iblk3 V c 1 t : S5000x1.Idx → BitVec 32) (ix2 p 0)).toInt.toNat := by
    rw [b1]
    show min ((V c main_v20 : S100000x1.Idx → BitVec 32) (ix2 ⟨5000 * t.val + p.val, hn⟩ 0)).toInt.toNat 99 = _
    omega
  show (k3_pay1 (iblk3 V c 0 t) (iblk3 V c 1 t) (iblk3 V c 2 t) (iblk3 V c 3 t) (iblk3 V c 4 t) (iblk3 V c 5 t) : S5000x64.Idx → EReal) (ix2 p q)
      = normOut V c (((cfg3.win 6).blk t).view.emb (ix2 p q))
  refine (body_at (iblk3 V c 0 t) (iblk3 V c 1 t) (iblk3 V c 2 t) (iblk3 V c 3 t) (iblk3 V c 4 t) (iblk3 V c 5 t) p q
    (Cert.Spec.graphOf (fun n => (V c main_v20 : S100000x1.Idx → BitVec 32) (ix2 n 0)) ⟨5000 * t.val + p.val, hn⟩)
    (by rw [b1]; exact r0) (by rw [b1]; exact r1) hg).trans ?_
  rw [b0, b2, b3, b4, b5, e6]
  rfl

/-- An index of the array is in point t's block iff each coordinate is in the block's range on its axis. -/
theorem mem_block_iff (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v36).slice (win3_6.rect t)).set ↔ _
  rw [View.set_slice_whole, Rect.mem_set_unit]
  exact Iff.rfl

/-- Every entry of the array is in some point's block: row n is in the block of point n / 5000. -/
theorem rows_covered (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : (i 0).val / 5000 < cfg3.N := lt_of_lt_of_eq (by omega : (i 0).val / 5000 < 20) N_3.symm
  obtain ⟨-, -, -, -, -, -, -, -, -, -, -, -, e60, e61⟩ := block_indices ⟨(i 0).val / 5000, hN⟩
  refine ⟨⟨(i 0).val / 5000, hN⟩, flush3_6 _, ?_⟩
  rw [mem_block_iff]
  intro a
  match a with
  | ⟨0, _⟩ =>
    show win3_6.index ⟨(i 0).val / 5000, hN⟩ (0 : Fin 2) * 5000 ≤ (i 0).val ∧ (i 0).val < win3_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, hN⟩ (1 : Fin 2) * 64 ≤ (i 1).val ∧ (i 1).val < win3_6.index ⟨(i 0).val / 5000, hN⟩ (1 : Fin 2) * 64 + 64
    rw [e61]; omega

/-- What the fourth call leaves in its result array, entry by entry: the normalised output. -/
theorem value (V : (c : Dev nD) → (b : Ref sig .tc) → Buf (Elt Ideal) ((c : Thread nD τ).loc b)) (c : Dev nD)
    (hb : Cert.Spec.InRange (fun n => (V c main_v20 : S100000x1.Idx → BitVec 32) (ix2 n 0))) (n : Fin 100000) (q : Fin 64) :
    ((dat3 (F := Ideal) V c).arrAt 6 cfg3.N : S100000x64.Idx → EReal) (ix2 n q)
      = Cert.Spec.normAt (fun n => (V c main_v20 : S100000x1.Idx → BitVec 32) (ix2 n 0)) (V c main_v19) (V c main_v25) (V c main_v33)
          (fun q => (V c main_v34 : S1x64.Idx → EReal) (ix2 0 q)) (fun q => (V c main_v35 : S1x64.Idx → EReal) (ix2 0 q)) n q := by
  rw [(dat3 (F := Ideal) V c).arrAt_eq_of_cover 6 (normOut V c) (fun t _ => point_writes_block V c hb t) rows_covered]
  rfl

end Cert.KernelIdeal.Region3

end
-- ==== Proof.RefMlp.lean ====
import proofs.«103468_j83322365542770_2_alg».proof.Proof.RefImports
import proofs.«103468_j83322365542770_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefMlp

open Cert.ReferenceIdeal Cert.ReferenceIdeal.Gen Cert.ReferenceIdeal.Read

/-! Each of the three products contracts the second axis of its left factor with the first axis of its right factor:
    at entry (n, q) the k-th term reads the left factor at (n, k) and the right factor at (k, q). -/

theorem lidx1_ix2 (n : Fin 100000) (q k : Fin 64) : lidx_main_v1 (ix2 n q) k = ix2 n k :=
  funext fun a => Fin.ext (by match a with | ⟨0, _⟩ => rfl | ⟨1, _⟩ => rfl)
theorem ridx1_ix2 (n : Fin 100000) (q k : Fin 64) : ridx_main_v1 (ix2 n q) k = ix2 k q :=
  funext fun a => Fin.ext (by match a with | ⟨0, _⟩ => rfl | ⟨1, _⟩ => rfl)
theorem lidx9_ix2 (n : Fin 100000) (q k : Fin 64) : lidx_main_v9 (ix2 n q) k = ix2 n k :=
  funext fun a => Fin.ext (by match a with | ⟨0, _⟩ => rfl | ⟨1, _⟩ => rfl)
theorem ridx9_ix2 (n : Fin 100000) (q k : Fin 64) : ridx_main_v9 (ix2 n q) k = ix2 k q :=
  funext fun a => Fin.ext (by match a with | ⟨0, _⟩ => rfl | ⟨1, _⟩ => rfl)
theorem lidx16_ix2 (n : Fin 100000) (q k : Fin 64) : lidx_main_v16 (ix2 n q) k = ix2 n k :=
  funext fun a => Fin.ext (by match a with | ⟨0, _⟩ => rfl | ⟨1, _⟩ => rfl)
theorem ridx16_ix2 (n : Fin 100000) (q k : Fin 64) : ridx_main_v16 (ix2 n q) k = ix2 k q :=
  funext fun a => Fin.ext (by match a with | ⟨0, _⟩ => rfl | ⟨1, _⟩ => rfl)

/-- After the first product: the entry is kept where it is at least zero and scaled by the slope elsewhere,
    which is the leaky rectifier of the sum of the input and the first product. -/
theorem v7_leaky (x0 x1 : FVec Ideal S100000x64 .f32) (x6 : FVec Ideal S64x64 .f32) (i : S100000x64.Idx) :
    val_main_v7 (F := Ideal) x0 x1 x6 i = Cert.Spec.leaky (val_main_v2 (F := Ideal) x0 x1 x6 i) := by
  rw [val_main_v7_apply, val_main_v4_apply, val_main_v6_apply, val_main_v3_apply, val_main_v5_apply,
    val_main_cst_apply, val_main_cst_0_apply]
  rfl

/-- After the second product: the same rectifier, applied to the second product. -/
theorem v14_leaky (x0 x1 : FVec Ideal S100000x64 .f32) (x6 x7 : FVec Ideal S64x64 .f32) (i : S100000x64.Idx) :
    val_main_v14 (F := Ideal) x0 x1 x6 x7 i = Cert.Spec.leaky (val_main_v9 (F := Ideal) x0 x1 x6 x7 i) := by
  rw [val_main_v14_apply, val_main_v11_apply, val_main_v13_apply, val_main_v10_apply, val_main_v12_apply,
    val_main_cst_1_apply, val_main_cst_2_apply]
  rfl

/-- The reference's three dense layers, entry by entry: the feature transform of the inputs and the transposed weights. -/
theorem mlp_eq (x0 x1 : FVec Ideal S100000x64 .f32) (x6 x7 x8 : FVec Ideal S64x64 .f32) (n : Fin 100000) (q : Fin 64) :
    val_main_v16 (F := Ideal) x0 x1 x6 x7 x8 (ix2 n q)
      = Cert.Spec.mlp x0 x1 (val_main_v0 (F := Ideal) x6) (val_main_v8 (F := Ideal) x7) (val_main_v15 (F := Ideal) x8) n q := by
  unfold Cert.Spec.mlp
  rw [val_main_v16_apply]
  refine Finset.sum_congr rfl fun k3 _ => ?_
  rw [lidx16_ix2, ridx16_ix2, v14_leaky, val_main_v9_apply]
  refine congrArg (fun v => Cert.Spec.leaky v * _) ?_
  refine Finset.sum_congr rfl fun k2 _ => ?_
  rw [lidx9_ix2, ridx9_ix2, v7_leaky, val_main_v2_apply, val_main_v1_apply]
  refine congrArg (fun v => Cert.Spec.leaky v * _) ?_
  refine congrArg (fun v => x0 (ix2 n k2) + v) ?_
  refine Finset.sum_congr rfl fun k1 _ => ?_
  rw [lidx1_ix2, ridx1_ix2]

end Cert.ReferenceIdeal.RefMlp

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.RefNorm.lean ====
import proofs.«103468_j83322365542770_2_alg».proof.Proof.RefImports
import proofs.«103468_j83322365542770_2_alg».proof.Proof.Spec
import proofs.«103468_j83322365542770_2_alg».proof.Proof.LibRowScatterAdd
import proofs.«103468_j83322365542770_2_alg».proof.Proof.LibRowGather
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefNorm

open Cert.ReferenceIdeal Cert.ReferenceIdeal.Gen Cert.ReferenceIdeal.Read

/-- Reading a one-column index array at `(e, 0)` and dropping the column is reading at `e`. -/
theorem idxCol (e : Fin 100000) :
    (fun a : Fin 1 => match a with | ⟨0, _⟩ => (⟨((ix2 e (0 : Fin 1) : S100000x1.Idx) 0).val, ((ix2 e (0 : Fin 1) : S100000x1.Idx) 0).isLt⟩ : Fin 100000))
      = (ix1 e : S100000.Idx) := by
  funext d
  match d with
  | ⟨0, _⟩ => rfl

/-- The column of graph numbers the first scatter-add is indexed by, at row `e`, is the `e`-th word. -/
theorem col36 (x4 : IVec S100000 32) (e : Fin 100000) :
    val_main_v36 (F := Ideal) x4 (ix2 e (0 : Fin 1)) = x4 (ix1 e) := by
  rw [val_main_v36_apply]
  exact congrArg x4 (idxCol e)

/-- The column of graph numbers the second scatter-add is indexed by, at row `e`, is the `e`-th word. -/
theorem col50 (x4 : IVec S100000 32) (e : Fin 100000) :
    val_main_v50 (F := Ideal) x4 (ix2 e (0 : Fin 1)) = x4 (ix1 e) := by
  rw [val_main_v50_apply]
  exact congrArg x4 (idxCol e)

/-- "Add the extent where the word is negative" leaves a word that is not negative, read signed, as it is. -/
theorem wrap_of_nonneg (w c : BitVec 32) (h : 0 ≤ w.toInt) :
    Scalar.select (IntOp.cmpi .slt w 0#32) c w = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-- The first gather's start index at row `n`: the `n`-th word itself, when it is not negative. -/
theorem col45 (x4 : IVec S100000 32) (hb : Cert.Spec.InRange (fun n => x4 (ix1 n))) (n : Fin 100000) :
    val_main_v45 (F := Ideal) x4 (ix2 n (0 : Fin 1)) = x4 (ix1 n) := by
  rw [val_main_v45_apply, val_main_v44_apply, val_main_v41_apply, val_main_v40_apply, val_main_c_6_apply]
  have hi : idx_main_v45 (ix2 n (0 : Fin 1)) = (ix1 n : S100000.Idx) := idxCol n
  rw [hi]
  exact wrap_of_nonneg _ _ (hb n).1

/-- The second gather's start index at row `n`: the same. -/
theorem col64 (x4 : IVec S100000 32) (hb : Cert.Spec.InRange (fun n => x4 (ix1 n))) (n : Fin 100000) :
    val_main_v64 (F := Ideal) x4 (ix2 n (0 : Fin 1)) = x4 (ix1 n) := by
  rw [val_main_v64_apply, val_main_v63_apply, val_main_v60_apply, val_main_v59_apply, val_main_c_11_apply]
  have hi : idx_main_v64 (ix2 n (0 : Fin 1)) = (ix1 n : S100000.Idx) := idxCol n
  rw [hi]
  exact wrap_of_nonneg _ _ (hb n).1

/-- A gather of the rows of a per-graph table `T` at a column of start indices whose `n`-th entry is the `n`-th word reads,
    at `(n, q)`, the table at the node's graph. -/
theorem gather_graph (x4 : IVec S100000 32) (idx : IVec S100000x1 32)
    (hidx : ∀ n : Fin 100000, idx (ix2 n (0 : Fin 1)) = x4 (ix1 n))
    (T : FVec Ideal S100x64 .f32) (n : Fin 100000) (q : Fin 64) :
    Host.gather gather_S100x64_S100000x1_S100000x64_1_0_n_n_0_1_164 T idx (ix2 n q)
      = T (ix2 (Cert.Spec.graphOf (fun n => x4 (ix1 n)) n) q) := by
  have h := Cert.RowGather.gather_apply (N := 100) (E := 100000) (C := 64) (w := 32) (by decide : 0 < 100)
    gather_S100x64_S100000x1_S100000x64_1_0_n_n_0_1_164_wf T idx n q
  refine h.trans ?_
  have hr : Cert.RowGather.row (N := 100) (by decide : 0 < 100) idx n = Cert.Spec.graphOf (fun n => x4 (ix1 n)) n := by
    refine Fin.ext ?_
    show min (idx (ix2 n (0 : Fin 1))).toInt.toNat (100 - 1) = min (x4 (ix1 n)).toInt.toNat 99
    rw [hidx n]
  rw [hr]

/-- The host's quotient of two arrays over the extended reals, read at an index. -/
theorem hostDiv_apply (a b : FVec Ideal S100000x64 .f32) (i : S100000x64.Idx) :
    Host.divf a b i = Ideal.div (a i) (b i) := rfl

/-- The reference's first segment sum (the scatter-add of the rows `A` at the nodes' graph numbers into zeros). -/
theorem segSum_eq (x4 : IVec S100000 32) (A : FVec Ideal S100000x64 .f32) (g : Fin 100) (q : Fin 64) :
    Host.scatterAdd (F := Ideal) scatter_S100x64_S100000x1_S100000x64_1_0_0_1 (val_main_v35 (F := Ideal)) (val_main_v36 (F := Ideal) x4) A (ix2 g q)
      = Cert.Spec.segSum (fun n => x4 (ix1 n)) A g q := by
  have h := Cert.RowScatterAdd.host_scatterAdd_apply (N := 100) (E := 100000) (C := 64) (w := 32) (φ := .f32)
    scatter_S100x64_S100000x1_S100000x64_1_0_0_1_wf (val_main_v35 (F := Ideal)) (val_main_v36 (F := Ideal) x4) A g q
  refine h.trans ?_
  have h0 : val_main_v35 (F := Ideal) (ix2 g q) = Cert.Spec.zero := by
    rw [val_main_v35_apply, val_main_cst_5_apply]
    rfl
  rw [h0]
  unfold Cert.Spec.segSum
  refine congrArg (fun t => Cert.Spec.zero + t) (Finset.sum_congr rfl fun e _ => ?_)
  have hiff : Cert.RowScatterAdd.hits (val_main_v36 (F := Ideal) x4) e g ↔ (x4 (ix1 e)).toInt = (g.val : Int) := by
    unfold Cert.RowScatterAdd.hits
    rw [col36]
  exact if_congr hiff rfl rfl

/-- The reference's second segment sum: of the squared deviations of `A`'s rows from the gathered rows of `M`. -/
theorem varSum_eq (x4 : IVec S100000 32) (hb : Cert.Spec.InRange (fun n => x4 (ix1 n))) (A : FVec Ideal S100000x64 .f32)
    (M : FVec Ideal S100x64 .f32) (g : Fin 100) (q : Fin 64) :
    Host.scatterAdd (F := Ideal) scatter_S100x64_S100000x1_S100000x64_1_0_0_1 (val_main_v49 (F := Ideal)) (val_main_v50 (F := Ideal) x4)
        (mulf (subf A (Host.gather gather_S100x64_S100000x1_S100000x64_1_0_n_n_0_1_164 M (val_main_v45 (F := Ideal) x4)))
              (subf A (Host.gather gather_S100x64_S100000x1_S100000x64_1_0_n_n_0_1_164 M (val_main_v45 (F := Ideal) x4)))) (ix2 g q)
      = Cert.Spec.varSum (fun n => x4 (ix1 n)) A M g q := by
  have h := Cert.RowScatterAdd.host_scatterAdd_apply (N := 100) (E := 100000) (C := 64) (w := 32) (φ := .f32)
    scatter_S100x64_S100000x1_S100000x64_1_0_0_1_wf (val_main_v49 (F := Ideal)) (val_main_v50 (F := Ideal) x4)
    (mulf (subf A (Host.gather gather_S100x64_S100000x1_S100000x64_1_0_n_n_0_1_164 M (val_main_v45 (F := Ideal) x4)))
          (subf A (Host.gather gather_S100x64_S100000x1_S100000x64_1_0_n_n_0_1_164 M (val_main_v45 (F := Ideal) x4)))) g q
  refine h.trans ?_
  have h0 : val_main_v49 (F := Ideal) (ix2 g q) = Cert.Spec.zero := by
    rw [val_main_v49_apply, val_main_cst_8_apply]
    rfl
  rw [h0]
  unfold Cert.Spec.varSum
  refine congrArg (fun t => Cert.Spec.zero + t) (Finset.sum_congr rfl fun e _ => ?_)
  have hiff : Cert.RowScatterAdd.hits (val_main_v50 (F := Ideal) x4) e g ↔ (x4 (ix1 e)).toInt = (g.val : Int) := by
    unfold Cert.RowScatterAdd.hits
    rw [col50]
  refine if_congr hiff ?_ rfl
  rw [mulf_apply, subf_apply, gather_graph x4 _ (col45 x4 hb) M e q]

/-- The reference's last lines: the deviation over the gathered spread plus the guard, scaled and shifted per feature. -/
theorem norm_eq (x4 : IVec S100000 32) (hb : Cert.Spec.InRange (fun n => x4 (ix1 n))) (A : FVec Ideal S100000x64 .f32)
    (M S : FVec Ideal S100x64 .f32) (x9 x10 : FVec Ideal S64 .f32) (n : Fin 100000) (q : Fin 64) :
    addf (mulf (Host.divf (subf A (Host.gather gather_S100x64_S100000x1_S100000x64_1_0_n_n_0_1_164 M (val_main_v45 (F := Ideal) x4)))
                  (addf (Host.gather gather_S100x64_S100000x1_S100000x64_1_0_n_n_0_1_164 S (val_main_v64 (F := Ideal) x4)) (val_main_v66 (F := Ideal))))
               (val_main_v70 (F := Ideal) x9)) (val_main_v73 (F := Ideal) x10) (ix2 n q)
      = Cert.Spec.normAt (fun n => x4 (ix1 n)) A M S (fun q => x9 (ix1 q)) (fun q => x10 (ix1 q)) n q := by
  have h66 : val_main_v66 (F := Ideal) (ix2 n q) = Cert.Spec.eps := by
    rw [val_main_v66_apply, val_main_cst_13_apply]
    rfl
  have h70 : val_main_v70 (F := Ideal) x9 (ix2 n q) = x9 (ix1 q) := by
    rw [val_main_v70_apply, val_main_v69_apply]
    refine congrArg x9 ?_
    funext d
    match d with
    | ⟨0, _⟩ => rfl
  have h73 : val_main_v73 (F := Ideal) x10 (ix2 n q) = x10 (ix1 q) := by
    rw [val_main_v73_apply, val_main_v72_apply]
    refine congrArg x10 ?_
    funext d
    match d with
    | ⟨0, _⟩ => rfl
  rw [addf_apply, mulf_apply, hostDiv_apply, subf_apply, addf_apply,
    gather_graph x4 _ (col45 x4 hb) M n q, gather_graph x4 _ (col64 x4 hb) S n q, h66, h70, h73]
  rfl

end Cert.ReferenceIdeal.RefNorm

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.Bridge.lean ====
/-
  THE TWO RESULTS ARE ONE ARRAY. The kernel's result (the chain of KRun, the four calls read by Region0 .. Region3) and
  the reference's result (its generated stages, read by RefMlp and RefNorm) are the same functions of the launch
  arrays, stage by stage: the transformed features (both are Spec.mlp of the inputs and the transposed weights), the
  aggregation over the edges (one function of the transformed features, never opened), the per-graph sums (both are
  Spec.segSum), the means (the same division; the counts as a column are a cast on one side and a broadcast on the
  other), the per-graph sums of squared deviations (Spec.varSum), the spreads, and the normalised output
  (Spec.normAt). Only the last two stages use that the node-to-graph map takes values in 0..99.
-/
import proofs.«103468_j83322365542770_2_alg».proof.Proof.KRun
import proofs.«103468_j83322365542770_2_alg».proof.Proof.Region0
import proofs.«103468_j83322365542770_2_alg».proof.Proof.Region1
import proofs.«103468_j83322365542770_2_alg».proof.Proof.Region2
import proofs.«103468_j83322365542770_2_alg».proof.Proof.Region3
import proofs.«103468_j83322365542770_2_alg».proof.Proof.RefMlp
import proofs.«103468_j83322365542770_2_alg».proof.Proof.RefNorm
import proofs.«103468_j83322365542770_2_alg».proof.Proof.LibKeepdims
import proofs.«103468_j83322365542770_2_alg».proof.Proof.LibBcastInDim

noncomputable section

open Idealize.ShloMosaic Idealize.ShloMosaic.TcCoe Idealize.SL.Sem Idealize.ShloMosaic.ValueIdx

namespace Cert.Bridge

/-! ## Layouts: a vector as a column or as a row -/

/-- A vector cast to a one-row matrix reads, at (0, q), the vector's entry q. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A vector as a column: the cast and the broadcast along axis 0 are the same array. -/
theorem colCast_eq_bcast {α : Type} {a : ℕ} (v : (⟨1, ![a]⟩ : Shape).Idx → α) (h1 : (⟨1, ![a]⟩ : Shape).ShapeCasts ⟨2, ![a, 1]⟩)
    (h2 : (⟨1, ![a]⟩ : Shape).BroadcastsInDim ⟨2, ![a, 1]⟩ (![0] : Fin 1 → Fin 2)) :
    shapeCast ⟨2, ![a, 1]⟩ v h1 = broadcastInDim ⟨2, ![a, 1]⟩ ![0] h2 v := by
  funext i
  obtain ⟨p, u, rfl⟩ : ∃ (p : Fin a) (u : Fin 1), i = ix2 p u := ⟨i 0, i 1, eq_ix2 i⟩
  rw [Cert.Keepdims.shapeCast_a_a1_apply, Cert.BcastInDim.vec_col_apply]

end Cert.Bridge

namespace Cert.Bridge

open Cert.KernelIdeal Cert.KernelIdeal.Gen Cert.KernelIdeal.KRun

variable (m : (ℓ : Loc nD τ sig) → Buf (Elt Ideal) ℓ) (ρ : Dev nD → PrngReg)

/-! ## The stages, one by one -/

/-- The node-to-graph column the calls read is the map's cast to a column: at row n, the n-th word. -/
theorem col_v20 (c : Dev nD) (n : Fin 100000) :
    (W3 m ρ c (Proc.devRef .tc main_v20) : S100000x1.Idx → BitVec 32) (ix2 n 0) = m ((c : Thread nD τ).loc main_arg4) (ix1 n) := by
  rw [W3_v20, W2_arg m ρ c main_arg4 (by simp)]
  exact Cert.Keepdims.shapeCast_a_a1_apply _ _ n 0

/-- The transformed features after the first call. -/
theorem stage_h (c : Dev nD) :
    W2 m ρ c (Proc.devRef .tc main_v3)
      = Cert.ReferenceIdeal.Read.val_main_v16 (F := Ideal) (m ((c : Thread nD τ).loc main_arg0)) (m ((c : Thread nD τ).loc main_arg1))
          (m ((c : Thread nD τ).loc main_arg6)) (m ((c : Thread nD τ).loc main_arg7)) (m ((c : Thread nD τ).loc main_arg8)) := by
  rw [W2_v3]
  funext i
  obtain ⟨n, q, rfl⟩ : ∃ (n : Fin 100000) (q : Fin 64), i = ix2 n q := ⟨i 0, i 1, eq_ix2 i⟩
  rw [Cert.ReferenceIdeal.RefMlp.mlp_eq]
  refine (Cert.KernelIdeal.Region0.value (V1 m ρ) c n q).trans ?_
  show Cert.Spec.mlp (W1 m ρ c (Proc.devRef .tc main_arg0)) (W1 m ρ c (Proc.devRef .tc main_arg1)) (W1 m ρ c (Proc.devRef .tc main_v0))
    (W1 m ρ c (Proc.devRef .tc main_v1)) (W1 m ρ c (Proc.devRef .tc main_v2)) n q = _
  rw [W1_arg m ρ c main_arg0 (by simp), W1_arg m ρ c main_arg1 (by simp), W1_v0, W1_v1, W1_v2]
  rfl

end Cert.Bridge

namespace Cert.Bridge

open Cert.KernelIdeal Cert.KernelIdeal.Gen Cert.KernelIdeal.KRun

variable (m : (ℓ : Loc nD τ sig) → Buf (Elt Ideal) ℓ) (ρ : Dev nD → PrngReg)

/-- The aggregated features: one function of the transformed features on both sides. -/
theorem stage_agg (c : Dev nD) :
    W3 m ρ c (Proc.devRef .tc main_v19) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  rw [W3_v19, stage_h, W2_arg m ρ c main_arg2 (by simp), W2_arg m ρ c main_arg3 (by simp), Cert.Agg.ref_agg]

/-- The per-graph sums of the aggregated rows. -/
theorem stage_musum (c : Dev nD) :
    W4 m ρ c (Proc.devRef .tc main_v23) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  rw [W4_v23]
  funext i
  obtain ⟨g, q, rfl⟩ : ∃ (g : Fin 100) (q : Fin 64), i = ix2 g q := ⟨i 0, i 1, eq_ix2 i⟩
  refine (Cert.KernelIdeal.Region1.value (V3 m ρ) c g q).trans ?_
  show Cert.Spec.segSum (fun n => (W3 m ρ c (Proc.devRef .tc main_v20) : S100000x1.Idx → BitVec 32) (ix2 n 0))
    (W3 m ρ c (Proc.devRef .tc main_v19)) g q = _
  rw [stage_agg, show (fun n => (W3 m ρ c (Proc.devRef .tc main_v20) : S100000x1.Idx → BitVec 32) (ix2 n 0))
    = fun n => m ((c : Thread nD τ).loc main_arg4) (ix1 n) from funext (col_v20 m ρ c)]
  exact (Cert.ReferenceIdeal.RefNorm.segSum_eq _ _ g q).symm

/-- The graphs' node counts as a column: the kernel's cast is the reference's broadcast. -/
theorem stage_cnt (c : Dev nD) :
    W3 m ρ c (Proc.devRef .tc main_v22) = Cert.ReferenceIdeal.Read.val_main_v34 (F := Ideal) (m ((c : Thread nD τ).loc main_arg5)) := by
  rw [W3_v22, W2_arg m ρ c main_arg5 (by simp)]
  exact colCast_eq_bcast _ _ _

/-- The per-graph means. -/
theorem stage_mu (c : Dev nD) :
    W5 m ρ c (Proc.devRef .tc main_v25) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W5_v25, stage_musum, W4_v22, stage_cnt]
  rfl

end Cert.Bridge

namespace Cert.Bridge

open Cert.KernelIdeal Cert.KernelIdeal.Gen Cert.KernelIdeal.KRun

variable (m : (ℓ : Loc nD τ sig) → Buf (Elt Ideal) ℓ) (ρ : Dev nD → PrngReg)

/-! ## What the later calls are given: the same column, aggregated features and means, passed along unchanged -/

theorem col5 (c : Dev nD) : (fun n : Fin 100000 => (W5 m ρ c (Proc.devRef .tc main_v20) : S100000x1.Idx → BitVec 32) (ix2 n 0))
    = fun n => m ((c : Thread nD τ).loc main_arg4) (ix1 n) := by
  funext n
  rw [W5_pass m ρ c main_v20 (by simp), W4_v20]
  exact col_v20 m ρ c n

theorem agg5 (c : Dev nD) :
    W5 m ρ c (Proc.devRef .tc main_v19) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (W5_pass m ρ c main_v19 (by simp)).trans ((W4_v19 m ρ c).trans (stage_agg m ρ c))

theorem col7 (c : Dev nD) : (fun n : Fin 100000 => (W7 m ρ c (Proc.devRef .tc main_v20) : S100000x1.Idx → BitVec 32) (ix2 n 0))
    = fun n => m ((c : Thread nD τ).loc main_arg4) (ix1 n) := by
  rw [W7_pass m ρ c main_v20 (by simp), W6_v20]
  exact col5 m ρ c

theorem agg7 (c : Dev nD) :
    W7 m ρ c (Proc.devRef .tc main_v19) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (W7_pass m ρ c main_v19 (by simp)).trans ((W6_v19 m ρ c).trans (agg5 m ρ c))

theorem mu7 (c : Dev nD) :
    W7 m ρ c (Proc.devRef .tc main_v25) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W7_pass m ρ c main_v25 (by simp)).trans ((W6_v25 m ρ c).trans (stage_mu m ρ c))

theorem cnt6 (c : Dev nD) :
    W6 m ρ c (Proc.devRef .tc main_v22) = Cert.ReferenceIdeal.Read.val_main_v34 (F := Ideal) (m ((c : Thread nD τ).loc main_arg5)) :=
  (W6_v22 m ρ c).trans ((W5_pass m ρ c main_v22 (by simp)).trans ((W4_v22 m ρ c).trans (stage_cnt m ρ c)))

/-- The scale (and the shift) as a row: at (0, q), the vector's entry q. -/
theorem row34 (c : Dev nD) : (fun q : Fin 64 => (W7 m ρ c (Proc.devRef .tc main_v34) : S1x64.Idx → EReal) (ix2 0 q))
    = fun q => m ((c : Thread nD τ).loc main_arg9) (ix1 q) := by
  funext q
  rw [W7_v34, W6_arg9, W5_pass m ρ c main_arg9 (by simp), W4_arg9, W3_arg9, W2_arg m ρ c main_arg9 (by simp)]
  exact shapeCast_b_1b_apply _ _ 0 q

theorem row35 (c : Dev nD) : (fun q : Fin 64 => (W7 m ρ c (Proc.devRef .tc main_v35) : S1x64.Idx → EReal) (ix2 0 q))
    = fun q => m ((c : Thread nD τ).loc main_arg10) (ix1 q) := by
  funext q
  rw [W7_v35, W6_arg10, W5_pass m ρ c main_arg10 (by simp), W4_arg10, W3_arg10, W2_arg m ρ c main_arg10 (by simp)]
  exact shapeCast_b_1b_apply _ _ 0 q

/-! ## The stages that use the range of the node-to-graph map -/

/-- The per-graph sums of squared deviations. -/
theorem stage_varsum (c : Dev nD) (hb : Cert.Spec.InRange (fun n => m ((c : Thread nD τ).loc main_arg4) (ix1 n))) :
    W6 m ρ c (Proc.devRef .tc main_v26) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W6_v26]
  funext i
  obtain ⟨g, q, rfl⟩ : ∃ (g : Fin 100) (q : Fin 64), i = ix2 g q := ⟨i 0, i 1, eq_ix2 i⟩
  refine (Cert.KernelIdeal.Region2.value (V5 m ρ) c (by
    show Cert.Spec.InRange (fun n => (W5 m ρ c (Proc.devRef .tc main_v20) : S100000x1.Idx → BitVec 32) (ix2 n 0))
    rw [col5]; exact hb) g q).trans ?_
  show Cert.Spec.varSum (fun n => (W5 m ρ c (Proc.devRef .tc main_v20) : S100000x1.Idx → BitVec 32) (ix2 n 0))
    (W5 m ρ c (Proc.devRef .tc main_v19)) (W5 m ρ c (Proc.devRef .tc main_v25)) g q = _
  rw [col5, agg5, stage_mu]
  exact (Cert.ReferenceIdeal.RefNorm.varSum_eq _ hb _ _ g q).symm

/-- The per-graph spreads. -/
theorem stage_sigma (c : Dev nD) (hb : Cert.Spec.InRange (fun n => m ((c : Thread nD τ).loc main_arg4) (ix1 n))) :
    W7 m ρ c (Proc.devRef .tc main_v33) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W7_v33, stage_varsum m ρ c hb, cnt6]
  rfl

/-- THE RESULT: the kernel's result array is the reference's result, as functions of the launch arrays. -/
theorem result_eq (c : Dev nD) (hb : Cert.Spec.InRange (fun n => m ((c : Thread nD τ).loc main_arg4) (ix1 n))) :
    W8 m ρ c (Proc.devRef .tc main_v36) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W8_v36]
  funext i
  obtain ⟨n, q, rfl⟩ : ∃ (n : Fin 100000) (q : Fin 64), i = ix2 n q := ⟨i 0, i 1, eq_ix2 i⟩
  refine (Cert.KernelIdeal.Region3.value (V7 m ρ) c (by
    show Cert.Spec.InRange (fun n => (W7 m ρ c (Proc.devRef .tc main_v20) : S100000x1.Idx → BitVec 32) (ix2 n 0))
    rw [col7]; exact hb) n q).trans ?_
  show Cert.Spec.normAt (fun n => (W7 m ρ c (Proc.devRef .tc main_v20) : S100000x1.Idx → BitVec 32) (ix2 n 0))
    (W7 m ρ c (Proc.devRef .tc main_v19)) (W7 m ρ c (Proc.devRef .tc main_v25)) (W7 m ρ c (Proc.devRef .tc main_v33))
    (fun q => (W7 m ρ c (Proc.devRef .tc main_v34) : S1x64.Idx → EReal) (ix2 0 q))
    (fun q => (W7 m ρ c (Proc.devRef .tc main_v35) : S1x64.Idx → EReal) (ix2 0 q)) n q = _
  rw [col7, agg7, mu7, stage_sigma m ρ c hb, row34, row35]
  exact (Cert.ReferenceIdeal.RefNorm.norm_eq _ hb _ _ _ _ _ n q).symm

end Cert.Bridge

end
-- ==== Proof.lean ====
/-
  THE CERTIFICATE. A graph convolution with a per-graph normalisation, as a kernel of four pallas_calls against a plain
  reference, over the extended reals, for node-to-graph maps with values in 0..99.

  Both programs transform the node features by three dense layers with leaky rectifiers, gather each edge's source
  row, scale it by the edge weight and add it into the edge's target row. They differ in how the normalisation is
  spelled. The reference sums rows per graph by a scatter-add at the node's graph number and reads a graph's mean and
  spread back at a node by a gather at that number. The kernel builds, per block of 5000 nodes, the one-hot matrix
  "node r is in graph g" and multiplies: its transpose times the rows is the block's contribution to every graph's
  sum, accumulated over the twenty blocks; the matrix times a per-graph table is the table's row of each node's
  graph. Over the extended reals 1 · y = y and 0 · y = 0 for every y, the infinite ones included, and addition is
  associative and commutative, so the products are exactly the sums and the reads the reference takes — provided
  every node's graph number is one of the hundred graphs: a number outside 0..99 selects no column of the one-hot
  matrix, where the reference's gather would read the nearest graph's row. That is the one added hypothesis; the
  finiteness of the float inputs is never used.

  The frames of the kernel and of its idealization are the generated ones; the reference's is its generated run. The
  idealization rewrote nothing. For the value claim, the kernel's run with its result array named (KRunNamed) ends at
  the generated chain of segment boundaries, which KRun reads stage by stage and Region0 .. Region3 read call by call;
  Bridge identifies every stage with the reference's (RefMlp, RefNorm) as one function of the launch arrays (Spec).
-/
import proofs.«103468_j83322365542770_2_alg».proof.Defs
import proofs.«103468_j83322365542770_2_alg».proof.Proof.Gen.Kernel
import proofs.«103468_j83322365542770_2_alg».proof.Proof.Gen.Kernel.Skeleton
import proofs.«103468_j83322365542770_2_alg».proof.Proof.Gen.Kernel.Launch
import proofs.«103468_j83322365542770_2_alg».proof.Proof.Gen.Kernel.Points
import proofs.«103468_j83322365542770_2_alg».proof.Proof.Gen.Kernel.Frame
import proofs.«103468_j83322365542770_2_alg».proof.Proof.Gen.KernelIdeal
import proofs.«103468_j83322365542770_2_alg».proof.Proof.Gen.KernelIdeal.Skeleton
import proofs.«103468_j83322365542770_2_alg».proof.Proof.Gen.KernelIdeal.Launch
import proofs.«103468_j83322365542770_2_alg».proof.Proof.Gen.KernelIdeal.Points
import proofs.«103468_j83322365542770_2_alg».proof.Proof.Gen.KernelIdeal.Frame
import proofs.«103468_j83322365542770_2_alg».proof.Proof.Gen.ReferenceIdeal
import proofs.«103468_j83322365542770_2_alg».proof.Proof.Gen.Pre_finite_inputs
import proofs.«103468_j83322365542770_2_alg».proof.Proof.RefImports
import proofs.«103468_j83322365542770_2_alg».proof.Proof.PreDecode
import proofs.«103468_j83322365542770_2_alg».proof.Proof.KRunNamed
import proofs.«103468_j83322365542770_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's result array and the reference's end equal: the kernel's at
    the last boundary's contents, the reference's at its last stage, one function of the launch arrays. -/
theorem algebraic : Cert.algebraic_KernelIdeal_ReferenceIdeal := by
  intro m ρ m' ρ' hpre hagree
  have hb : ∀ c : Dev Cert.KernelIdeal.nD, Cert.Spec.InRange
      (fun n => m ((c.tc : Thread Cert.KernelIdeal.nD Cert.KernelIdeal.τ).loc Cert.KernelIdeal.main_arg4) (ix1 n)) :=
    fun c => Cert.PreDecode.range_of_fn _ _ _ _ _ _ _ _ _ _ _ (hpre c)
  refine ⟨fun c => Cert.KernelIdeal.Gen.W8 m ρ c (Proc.devRef .tc Cert.KernelIdeal.main_v36),
    Cert.KernelIdeal.KRun.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq,
    (hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2]
  exact (Cert.Bridge.result_eq m ρ c (hb c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
